-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x640000 32 := broadcastInDim S2x640000 ![] bcast_S_S2x640000 main_c_20
  let main_v55 : IVec S2x640000 1 := cmpi .sge main_arg1 main_v54
  let main_c_21 : IVec S_ 1 := constantI S_ 1 1#1
  let main_v56 : IVec S_ 1 := (fun x v => Host.reduce IntOp.andi x v reducesTo_S2x640000_S_d0_1 h_S_) main_v55 main_c_21
  let main_v57 : IVec S_ 1 := andi main_v53 main_v56
  let main_c_22 : IVec S_ 32 := constantI S_ 32 100000#32
  let main_v58 : IVec S2x640000 32 := broadcastInDim S2x640000 ![] bcast_S_S2x640000 main_c_22
  let main_v59 : IVec S2x640000 1 := cmpi .slt main_arg1 main_v58
  let main_c_23 : IVec S_ 1 := constantI S_ 1 1#1
  let main_v60 : IVec S_ 1 := (fun x v => Host.reduce IntOp.andi x v reducesTo_S2x640000_S_d0_1 h_S_) main_v59 main_c_23
  let main_v61 : IVec S_ 1 := andi main_v57 main_v60
  main_v61

def fn_part2 {F : FTy → Type} [FloatOps F] (main_arg1 : IVec S2x640000 32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩
abbrev S100001x128 : Shape := ⟨2, ![100001, 128]⟩
abbrev S740000x128 : Shape := ⟨2, ![740000, 128]⟩

abbrev nBuf : Space → Nat
  | .hbm => 137
  | .vmem => 46
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S1x640000, .i32⟩
  | 13 => ⟨S640000, .i32⟩
  | 14 => ⟨S1x640000, .i32⟩
  | 15 => ⟨S640000, .i32⟩
  | 16 => ⟨S640000, .i1⟩
  | 17 => ⟨S100000, .i32⟩
  | 18 => ⟨S740000, .i32⟩
  | 19 => ⟨S740000, .i32⟩
  | 20 => ⟨S_, .i1⟩
  | 21 => ⟨S100000, .i1⟩
  | 22 => ⟨S740000, .i1⟩
  | 23 => ⟨S740000, .f32⟩
  | 24 => ⟨S_, .f32⟩
  | 25 => ⟨S100000, .f32⟩
  | 26 => ⟨S740000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S_, .i32⟩
  | 38 => ⟨S_, .i32⟩
  | 39 => ⟨S740000, .i32⟩
  | 40 => ⟨S740000, .i32⟩
  | 41 => ⟨S128x128, .f32⟩
  | 42 => ⟨S100000x128, .f32⟩
  | 43 => ⟨S_, .f32⟩
  | 44 => ⟨S1x128, .f32⟩
  | 45 => ⟨S100001x128, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000x128, .f32⟩
  | 55 => ⟨S_, .f32⟩
  | 56 => ⟨S100000x128, .f32⟩
  | 57 => ⟨S740000x1, .i32⟩
  | 58 => ⟨S100000x128, .f32⟩
  | 59 => ⟨S1x128, .f32⟩
  | 60 => ⟨S128x128, .f32⟩
  | 61 => ⟨S100000x128, .f32⟩
  | 62 => ⟨S_, .f32⟩
  | 63 => ⟨S1x128, .f32⟩
  | 64 => ⟨S100001x128, .f32⟩
  | 65 => ⟨S_, .i32⟩
  | 66 => ⟨S740000, .i32⟩
  | 67 => ⟨S740000, .i1⟩
  | 68 => ⟨S_, .i32⟩
  | 69 => ⟨S740000, .i32⟩
  | 70 => ⟨S740000, .i32⟩
  | 71 => ⟨S740000, .i32⟩
  | 72 => ⟨S740000x1, .i32⟩
  | 73 => ⟨S740000x128, .f32⟩
  | 74 => ⟨S_, .f32⟩
  | 75 => ⟨S100000x128, .f32⟩
  | 76 => ⟨S740000x1, .i32⟩
  | 77 => ⟨S100000x128, .f32⟩
  | 78 => ⟨S1x128, .f32⟩
  | 79 => ⟨S128x128, .f32⟩
  | 80 => ⟨S100000x128, .f32⟩
  | 81 => ⟨S_, .f32⟩
  | 82 => ⟨S1x128, .f32⟩
  | 83 => ⟨S100001x128, .f32⟩
  | 84 => ⟨S_, .i32⟩
  | 85 => ⟨S740000, .i32⟩
  | 86 => ⟨S740000, .i1⟩
  | 87 => ⟨S_, .i32⟩
  | 88 => ⟨S740000, .i32⟩
  | 89 => ⟨S740000, .i32⟩
  | 90 => ⟨S740000, .i32⟩
  | 91 => ⟨S740000x1, .i32⟩
  | 92 => ⟨S740000x128, .f32⟩
  | 93 => ⟨S_, .f32⟩
  | 94 => ⟨S100000x128, .f32⟩
  | 95 => ⟨S740000x1, .i32⟩
  | 96 => ⟨S100000x128, .f32⟩
  | 97 => ⟨S1x128, .f32⟩
  | 98 => ⟨S128x128, .f32⟩
  | 99 => ⟨S100000x128, .f32⟩
  | 100 => ⟨S_, .f32⟩
  | 101 => ⟨S1x128, .f32⟩
  | 102 => ⟨S100001x128, .f32⟩
  | 103 => ⟨S_, .i32⟩
  | 104 => ⟨S740000, .i32⟩
  | 105 => ⟨S740000, .i1⟩
  | 106 => ⟨S_, .i32⟩
  | 107 => ⟨S740000, .i32⟩
  | 108 => ⟨S740000, .i32⟩
  | 109 => ⟨S740000, .i32⟩
  | 110 => ⟨S740000x1, .i32⟩
  | 111 => ⟨S740000x128, .f32⟩
  | 112 => ⟨S_, .f32⟩
  | 113 => ⟨S100000x128, .f32⟩
  | 114 => ⟨S740000x1, .i32⟩
  | 115 => ⟨S100000x128, .f32⟩
  | 116 => ⟨S1x128, .f32⟩
  | 117 => ⟨S128x128, .f32⟩
  | 118 => ⟨S100000x128, .f32⟩
  | 119 => ⟨S_, .f32⟩
  | 120 => ⟨S1x128, .f32⟩
  | 121 => ⟨S100001x128, .f32⟩
  | 122 => ⟨S_, .i32⟩
  | 123 => ⟨S740000, .i32⟩
  | 124 => ⟨S740000, .i1⟩
  | 125 => ⟨S_, .i32⟩
  | 126 => ⟨S740000, .i32⟩
  | 127 => ⟨S740000, .i32⟩
  | _ => ⟨S100000x128, .f32⟩

abbrev hbmTy0_1 (i : Nat) : BufTy := match i % 128 with
  | 0 => ⟨S740000, .i32⟩
  | 1 => ⟨S740000x1, .i32⟩
  | 2 => ⟨S740000x128, .f32⟩
  | 3 => ⟨S_, .f32⟩
  | 4 => ⟨S100000x128, .f32⟩
  | 5 => ⟨S740000x1, .i32⟩
  | 6 => ⟨S100000x128, .f32⟩
  | 7 => ⟨S1x128, .f32⟩
  | 8 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_v84 : Ref sig .tc := ⟨.hbm, 123, rfl⟩
abbrev main_v85 : Ref sig .tc := ⟨.hbm, 124, rfl⟩
abbrev main_c_21 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  bcast_S_S740000 : S_.BroadcastsInDim S740000 (![] : Fin 0 → Fin S740000.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1x128 : S_.BroadcastsInDim S1x128 (![] : Fin 0 → Fin S1x128.rank)
  concatenates_S100000x128_S1x128_S100001x128_d0 : Shape.Concatenates [S100000x128, S1x128] S100001x128 0
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S740000x1_S740000_n_0_0_1_wf : ScatterDims.WF S100000 S740000x1 S740000 [] [0] [0] 1
  dot_S5000x128_S128x128_S5000x128_1_0_0_1_n_n_wf : DotDims.WF S5000x128 S128x128 S5000x128 [1] [0] [0] [1] [] []
  gather_S100001x128_S740000x1_S740000x128_1_0_n_n_0_1_1128_wf : GatherDims.WF S100001x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100001x128_S740000x1_S740000x128_1_0_n_n_0_1_1128 : GatherDims S100001x128 S740000x1 S740000x128 where
  offsetDims := [1]
  collapsedSliceDims := [0]
  operandBatchingDims := []
  startIndicesBatchingDims := []
  startIndexMap := [0]
  indexVectorDim := 1
  sliceSizes := ![1, 128]
  wf := gather_S100001x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v93) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S1x640000, .i32⟩
  | 13 => ⟨S640000, .i32⟩
  | 14 => ⟨S1x640000, .i32⟩
  | 15 => ⟨S640000, .i32⟩
  | 16 => ⟨S640000, .i1⟩
  | 17 => ⟨S640000, .f32⟩
  | 18 => ⟨S100000, .i32⟩
  | 19 => ⟨S740000, .i32⟩
  | 20 => ⟨S740000, .i32⟩
  | 21 => ⟨S_, .f32⟩
  | 22 => ⟨S100000, .f32⟩
  | 23 => ⟨S740000, .f32⟩
  | 24 => ⟨S_, .f32⟩
  | 25 => ⟨S100000, .f32⟩
  | 26 => ⟨S740000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000, .f32⟩
  | 45 => ⟨S740000, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000, .f32⟩
  | 55 => ⟨S740000, .f32⟩
  | 56 => ⟨S128x128, .f32⟩
  | 57 => ⟨S100000x128, .f32⟩
  | 58 => ⟨S740000x1, .f32⟩
  | 59 => ⟨S_, .i32⟩
  | 60 => ⟨S740000, .i32⟩
  | 61 => ⟨S740000, .i1⟩
  | 62 => ⟨S_, .i32⟩
  | 63 => ⟨S740000, .i32⟩
  | 64 => ⟨S740000, .i32⟩
  | 65 => ⟨S740000, .i32⟩
  | 66 => ⟨S740000x1, .i32⟩
  | 67 => ⟨S740000x128, .f32⟩
  | 68 => ⟨S740000x128, .f32⟩
  | 69 => ⟨S740000x128, .f32⟩
  | 70 => ⟨S_, .f32⟩
  | 71 => ⟨S100000x128, .f32⟩
  | 72 => ⟨S740000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S128x128, .f32⟩
  | 81 => ⟨S100000x128, .f32⟩
  | 82 => ⟨S740000x1, .f32⟩
  | 83 => ⟨S_, .i32⟩
  | 84 => ⟨S740000, .i32⟩
  | 85 => ⟨S740000, .i1⟩
  | 86 => ⟨S_, .i32⟩
  | 87 => ⟨S740000, .i32⟩
  | 88 => ⟨S740000, .i32⟩
  | 89 => ⟨S740000, .i32⟩
  | 90 => ⟨S740000x1, .i32⟩
  | 91 => ⟨S740000x128, .f32⟩
  | 92 => ⟨S740000x128, .f32⟩
  | 93 => ⟨S740000x128, .f32⟩
  | 94 => ⟨S_, .f32⟩
  | 95 => ⟨S100000x128, .f32⟩
  | 96 => ⟨S740000x1, .i32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S128x128, .f32⟩
  | 105 => ⟨S100000x128, .f32⟩
  | 106 => ⟨S740000x1, .f32⟩
  | 107 => ⟨S_, .i32⟩
  | 108 => ⟨S740000, .i32⟩
  | 109 => ⟨S740000, .i1⟩
  | 110 => ⟨S_, .i32⟩
  | 111 => ⟨S740000, .i32⟩
  | 112 => ⟨S740000, .i32⟩
  | 113 => ⟨S740000, .i32⟩
  | 114 => ⟨S740000x1, .i32⟩
  | 115 => ⟨S740000x128, .f32⟩
  | 116 => ⟨S740000x128, .f32⟩
  | 117 => ⟨S740000x128, .f32⟩
  | 118 => ⟨S_, .f32⟩
  | 119 => ⟨S100000x128, .f32⟩
  | 120 => ⟨S740000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S128x128, .f32⟩
  | 1 => ⟨S100000x128, .f32⟩
  | 2 => ⟨S740000x1, .f32⟩
  | 3 => ⟨S_, .i32⟩
  | 4 => ⟨S740000, .i32⟩
  | 5 => ⟨S740000, .i1⟩
  | 6 => ⟨S_, .i32⟩
  | 7 => ⟨S740000, .i32⟩
  | 8 => ⟨S740000, .i32⟩
  | 9 => ⟨S740000, .i32⟩
  | 10 => ⟨S740000x1, .i32⟩
  | 11 => ⟨S740000x128, .f32⟩
  | 12 => ⟨S740000x128, .f32⟩
  | 13 => ⟨S740000x128, .f32⟩
  | 14 => ⟨S_, .f32⟩
  | 15 => ⟨S100000x128, .f32⟩
  | 16 => ⟨S740000x1, .i32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S128x128, .f32⟩
  | 25 => ⟨S100000x128, .f32⟩
  | 26 => ⟨S740000x1, .f32⟩
  | 27 => ⟨S_, .i32⟩
  | 28 => ⟨S740000, .i32⟩
  | 29 => ⟨S740000, .i1⟩
  | 30 => ⟨S_, .i32⟩
  | 31 => ⟨S740000, .i32⟩
  | 32 => ⟨S740000, .i32⟩
  | 33 => ⟨S740000, .i32⟩
  | 34 => ⟨S740000x1, .i32⟩
  | 35 => ⟨S740000x128, .f32⟩
  | 36 => ⟨S740000x128, .f32⟩
  | 37 => ⟨S740000x128, .f32⟩
  | 38 => ⟨S_, .f32⟩
  | 39 => ⟨S100000x128, .f32⟩
  | 40 => ⟨S740000x1, .i32⟩
  | 41 => ⟨S100000x128, .f32⟩
  | 42 => ⟨S1x128, .f32⟩
  | 43 => ⟨S100000x128, .f32⟩
  | 44 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call2_cst : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_12 : Ref sig .tc := ⟨.hbm, 107, rfl⟩
abbrev main_v75 : Ref sig .tc := ⟨.hbm, 108, rfl⟩
abbrev main_v76 : Ref sig .tc := ⟨.hbm, 109, rfl⟩
abbrev main_c_13 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call3_cst : Ref sig .tc := ⟨.hbm, 125, rfl⟩
abbrev main_call3_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_15 : Ref sig .tc := ⟨.hbm, 131, rfl⟩
abbrev main_v94 : Ref sig .tc := ⟨.hbm, 132, rfl⟩
abbrev main_v95 : Ref sig .tc := ⟨.hbm, 133, rfl⟩
abbrev main_c_16 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_17 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_call4_cst : Ref sig .tc := ⟨.hbm, 149, rfl⟩
abbrev main_call4_v0 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_18 : Ref sig .tc := ⟨.hbm, 155, rfl⟩
abbrev main_v113 : Ref sig .tc := ⟨.hbm, 156, rfl⟩
abbrev main_v114 : Ref sig .tc := ⟨.hbm, 157, rfl⟩
abbrev main_c_19 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_20 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  transposes_S128x128_S128x128_1_0 : S128x128.Transposes [1, 0] S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.RefVal.lean ====
/-
  The reference program's result as a composition of named whole-array functions (floats are extended reals).

  From the edge list the reference builds the source and target index of every edge slot (the 640000 edges, then one
  self loop per node), the slot weights `ew` (1 for an edge whose ends differ and for every self loop, else 0), the
  degrees `deg[i] = ∑ ew` over the slots targeting `i`, `dinv = 1/√deg` where `deg > 0` and 0 elsewhere, and the slot
  coefficients `norm = dinv[src] · ew · dinv[dst]`. A layer multiplies the features by the transposed weights, gathers
  one product row per slot at its source, scales it by the slot's coefficient, adds it into its target's row, and adds
  the bias; all layers but the last clamp at zero.
-/
import proofs.«113241_j59012850647682_2_alg».proof.Proof.RefRunP
import Idealize.ShloMosaic.PureOps.Ideal.Laws

set_option maxRecDepth 16384

noncomputable section

namespace Cert.ReferenceIdeal.RefVal

open Cert.ReferenceIdeal Cert.ReferenceIdeal.Gen Idealize.ShloMosaic Idealize.ShloMosaic.TcCoe Idealize.SL.Sem
open Idealize.ShloMosaic.StableHlo

/-- Row `r` of the edge list as a vector of 640000 indices. -/
def srcI (ei : IVec S2x640000 32) : IVec S640000 32 :=
  shapeCast _ (extractStridedSlice S1x640000 ![0, 0] ei slices_S2x640000_S1x640000_0_0) shapeCasts_S1x640000_S640000
def dstI (ei : IVec S2x640000 32) : IVec S640000 32 :=
  shapeCast _ (extractStridedSlice S1x640000 ![1, 0] ei slices_S2x640000_S1x640000_1_0) shapeCasts_S1x640000_S640000
/-- A vector of edge ends followed by the node numbers: the self loops. -/
def withLoops (v : IVec S640000 32) : IVec S740000 32 :=
  concatenate S740000 0 [⟨S640000, v⟩, ⟨S100000, iotaInDim S100000 32 0⟩] concatenates_S640000_S100000_S740000_d0
/-- The slot weights. -/
def ewR (ei : IVec S2x640000 32) : FVec Ideal S740000 .f32 :=
  concatenate S740000 0 [⟨S640000, uitofp .f32 (cmpi .ne (srcI ei) (dstI ei))⟩,
    ⟨S100000, broadcastInDim S100000 ![] bcast_S_S100000 (constant (F := Ideal) S_ .f32 0x3F800000#32)⟩]
    concatenates_S640000_S100000_S740000_d0
/-- The degrees. -/
def degOf (col : IVec S740000 32) (ew : FVec Ideal S740000 .f32) : FVec Ideal S100000 .f32 :=
  Host.scatterAdd scatter_S100000_S740000x1_S740000_n_0_0_1
    (broadcastInDim S100000 ![] bcast_S_S100000 (constant S_ .f32 0x00000000#32))
    (broadcastInDim S740000x1 ![0] bcast_S740000_S740000x1_0 col) ew
/-- `1/√deg` where `deg > 0`, else 0. -/
def dinvOf (deg : FVec Ideal S100000 .f32) : FVec Ideal S100000 .f32 :=
  select (cmpf .ogt deg (broadcastInDim S100000 ![] bcast_S_S100000 (constant S_ .f32 0x00000000#32)))
    (Host.rsqrt deg) (broadcastInDim S100000 ![] bcast_S_S100000 (id (constant S_ .f32 0x00000000#32)))
/-- A negative index counted from the end of 100000 entries. -/
def wrapI (v : IVec S740000 32) : IVec S740000 32 :=
  select (cmpi .slt v (broadcastInDim S740000 ![] bcast_S_S740000 (constantI S_ 32 0#32)))
    (addi v (broadcastInDim S740000 ![] bcast_S_S740000 (constantI S_ 32 100000#32))) v
/-- The slot coefficients. -/
def normOf (dinv : FVec Ideal S100000 .f32) (row col : IVec S740000 32) (ew : FVec Ideal S740000 .f32) :
    FVec Ideal S740000 .f32 :=
  mulf (mulf (Host.gather gather_S100000_S740000x1_S740000_n_0_n_n_0_1_1 dinv
      (broadcastInDim S740000x1 ![0] bcast_S740000_S740000x1_0 (wrapI row))) ew)
    (Host.gather gather_S100000_S740000x1_S740000_n_0_n_n_0_1_1 dinv
      (broadcastInDim S740000x1 ![0] bcast_S740000_S740000x1_0 (wrapI col)))
/-- One layer's aggregate: the features times the transposed weights, gathered per slot, scaled, scattered. -/
def aggR (row col : IVec S740000 32) (norm : FVec Ideal S740000 .f32) (H : FVec Ideal S100000x128 .f32)
    (W : FVec Ideal S128x128 .f32) : FVec Ideal S100000x128 .f32 :=
  Host.scatterAdd scatter_S100000x128_S740000x1_S740000x128_1_0_0_1
    (broadcastInDim S100000x128 ![] bcast_S_S100000x128 (constant S_ .f32 0x00000000#32))
    (broadcastInDim S740000x1 ![0] bcast_S740000_S740000x1_0 col)
    (mulf (broadcastInDim S740000x128 ![0, 1] bcast_S740000x1_S740000x128_0_1
        (broadcastInDim S740000x1 ![0] bcast_S740000_S740000x1_0 norm))
      (Host.gather gather_S100000x128_S740000x1_S740000x128_1_0_n_n_0_1_1128
        (Host.dotGeneral dot_S100000x128_S128x128_S100000x128_1_0_0_1_n_n none H
          (transpose S128x128 [1, 0] W transposes_S128x128_S128x128_1_0))
        (broadcastInDim S740000x1 ![0] bcast_S740000_S740000x1_0 (wrapI row))))
/-- The bias added to every row. -/
def biasAdd (S : FVec Ideal S100000x128 .f32) (b : FVec Ideal S128 .f32) : FVec Ideal S100000x128 .f32 :=
  addf S (broadcastInDim S100000x128 ![0, 1] bcast_S1x128_S100000x128_0_1 (broadcastInDim S1x128 ![1] bcast_S128_S1x128_1 b))
/-- Clamp at zero. -/
def relu (X : FVec Ideal S100000x128 .f32) : FVec Ideal S100000x128 .f32 :=
  maximumf X (broadcastInDim S100000x128 ![] bcast_S_S100000x128 (constant S_ .f32 0x00000000#32))

/-- The reference's result. -/
def rOut (x : FVec Ideal S100000x128 .f32) (ei : IVec S2x640000 32)
    (w0 : FVec Ideal S128x128 .f32) (b0 : FVec Ideal S128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) : FVec Ideal S100000x128 .f32 :=
  let row := withLoops (srcI ei)
  let col := withLoops (dstI ei)
  let ew := ewR ei
  let norm := normOf (dinvOf (degOf col ew)) row col ew
  let h1 := relu (biasAdd (aggR row col norm x w0) b0)
  let h2 := relu (biasAdd (aggR row col norm h1 w1) b1)
  let h3 := relu (biasAdd (aggR row col norm h2 w2) b2)
  let h4 := relu (biasAdd (aggR row col norm h3 w3) b3)
  biasAdd (aggR row col norm h4 w4) b4

set_option maxRecDepth 65536 in
set_option maxHeartbeats 16000000 in
/-- The run's result term is that composition of the argument arrays. -/
theorem res_eq (m : (ℓ : Loc nD τ sig) → Buf (Elt Ideal) ℓ) (c : Dev nD) :
    Cert.ReferenceIdeal.ValueP.res_main_v127 (F := Ideal) m c
      = rOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.ValueP.res_main_v127
  rfl

end Cert.ReferenceIdeal.RefVal

end
-- ==== Proof.KRun.lean ====
/-
  The kernel program's run with its result named.

  Every weakly fair execution of the program terminates without a fault; afterwards the twelve argument arrays are as
  launched and the result array holds what the last launch's write-backs leave in it (`W16`, the buffer contents at
  the last segment boundary, read at the result buffer). The run is the chain of the program's segments: five
  stretches of host operations before the first launch, then each launch followed by the host stretch that prepares
  the next one. Only the last line differs from the frame statement: the final state is read at the result buffer too.
-/
import proofs.«113241_j59012850647682_2_alg».proof.Proof.Gen.KernelIdeal.Frame

set_option maxRecDepth 16384

noncomputable section

namespace Cert.KernelIdeal.RegVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v95) = W16 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v95 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.RegVal

end
-- ==== Proof.KHost.lean ====
/-
  The host operations between the kernel's launches, read as functions of whole arrays (floats are extended reals).

  Between two launches the program pads the previous launch's result `T` with one row of zeros, gathers one padded
  row per edge slot (the slot's adjusted source index, read signed, wrapped if negative and clamped), and adds each
  gathered row into the row its target index names: `aggK col rowAdj T`. It also lays the next bias out as one row
  and transposes the next weights. The integer vectors (`col`, `rowAdj`), the degree column and the arguments are
  written once, before the first launch, and no later operation or launch writes them: at every later segment
  boundary they are what they were at the first launch.
-/
import proofs.«113241_j59012850647682_2_alg».proof.Proof.Gen.KernelIdeal.Frame
import Idealize.ShloMosaic.Lib.StableHlo.Run
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.StableHlo

/-- Gather the rows of `T`, padded with a zero row, at the adjusted source indices; add each into its target row. -/
def aggK (colI rowAdj : IVec S740000 32) (T : FVec Ideal S100000x128 .f32) : FVec Ideal S100000x128 .f32 :=
  Host.scatterAdd scatter_S100000x128_S740000x1_S740000x128_1_0_0_1
    (broadcastInDim S100000x128 ![] bcast_S_S100000x128 (constant S_ .f32 0x00000000#32))
    (broadcastInDim S740000x1 ![0] bcast_S740000_S740000x1_0 colI)
    (Host.gather gather_S100001x128_S740000x1_S740000x128_1_0_n_n_0_1_1128
      (concatenate S100001x128 0 [⟨S100000x128, T⟩,
        ⟨S1x128, broadcastInDim S1x128 ![] bcast_S_S1x128 (constant (F := Ideal) S_ .f32 0x00000000#32)⟩]
        concatenates_S100000x128_S1x128_S100001x128_d0)
      (broadcastInDim S740000x1 ![0] bcast_S740000_S740000x1_0
        (select (cmpi .slt rowAdj (broadcastInDim S740000 ![] bcast_S_S740000 (constantI S_ 32 0#32)))
          (addi rowAdj (broadcastInDim S740000 ![] bcast_S_S740000 (constantI S_ 32 100001#32))) rowAdj)))

variable (m : (ℓ : Loc nD τ sig) → Buf (Elt Ideal) ℓ) (ρ : Dev nD → PrngReg)

/-- The arguments read after the first launch: the biases and the later weights. -/
abbrev laterArgs : List (Ref sig .tc) := [main_arg3, main_arg4, main_arg5, main_arg6, main_arg7, main_arg8, main_arg9, main_arg10, main_arg11]
/-- What every later segment carries unchanged besides the degree column: those arguments and the two index vectors. -/
abbrev carried : List (Ref sig .tc) := [main_arg3, main_arg4, main_arg5, main_arg6, main_arg7, main_arg8, main_arg9, main_arg10, main_arg11, main_v7, main_v19]

theorem keepA1 (c : Dev nD) (b : Ref sig .tc) (hb : b ∈ laterArgs) :
    W1 m ρ c (Proc.devRef .tc b) = W0 m ρ c (Proc.devRef .tc b) := by
  simp only [laterArgs, List.mem_cons, List.mem_nil_iff, or_false] at hb
  rcases hb with rfl | rfl | rfl | rfl | rfl | rfl | rfl | rfl | rfl
  all_goals exact StableHlo.after_of_forall_not_mem (b := Proc.devRef .tc _) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepA2 (c : Dev nD) (b : Ref sig .tc) (hb : b ∈ laterArgs) :
    W2 m ρ c (Proc.devRef .tc b) = W1 m ρ c (Proc.devRef .tc b) := by
  simp only [laterArgs, List.mem_cons, List.mem_nil_iff, or_false] at hb
  rcases hb with rfl | rfl | rfl | rfl | rfl | rfl | rfl | rfl | rfl
  all_goals exact StableHlo.after_of_forall_not_mem (b := Proc.devRef .tc _) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepA3 (c : Dev nD) (b : Ref sig .tc) (hb : b ∈ laterArgs) :
    W3 m ρ c (Proc.devRef .tc b) = W2 m ρ c (Proc.devRef .tc b) := by
  simp only [laterArgs, List.mem_cons, List.mem_nil_iff, or_false] at hb
  rcases hb with rfl | rfl | rfl | rfl | rfl | rfl | rfl | rfl | rfl
  all_goals exact StableHlo.after_of_forall_not_mem (b := Proc.devRef .tc _) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepA4 (c : Dev nD) (b : Ref sig .tc) (hb : b ∈ laterArgs) :
    W4 m ρ c (Proc.devRef .tc b) = W3 m ρ c (Proc.devRef .tc b) := by
  simp only [laterArgs, List.mem_cons, List.mem_nil_iff, or_false] at hb
  rcases hb with rfl | rfl | rfl | rfl | rfl | rfl | rfl | rfl | rfl
  all_goals exact StableHlo.after_of_forall_not_mem (b := Proc.devRef .tc _) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepA5 (c : Dev nD) (b : Ref sig .tc) (hb : b ∈ laterArgs) :
    W5 m ρ c (Proc.devRef .tc b) = W4 m ρ c (Proc.devRef .tc b) := by
  simp only [laterArgs, List.mem_cons, List.mem_nil_iff, or_false] at hb
  rcases hb with rfl | rfl | rfl | rfl | rfl | rfl | rfl | rfl | rfl
  all_goals exact StableHlo.after_of_forall_not_mem (b := Proc.devRef .tc _) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepB6 (c : Dev nD) (b : Ref sig .tc) (hb : b ∈ carried) :
    W6 m ρ c (Proc.devRef .tc b) = W5 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact W6_of_ne m ρ c _ (by decide)
theorem keepD6 (c : Dev nD) : W6 m ρ c (Proc.devRef .tc main_v18) = W5 m ρ c (Proc.devRef .tc main_v18) :=
  (W6_arr m ρ c 1).trans (((dat0 (V5 m ρ) c).arrAt_in 1 rfl _).trans (A_eq0 (V5 m ρ) c 1))
theorem keepB7 (c : Dev nD) (b : Ref sig .tc) (hb : b ∈ carried) :
    W7 m ρ c (Proc.devRef .tc b) = W6 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact StableHlo.after_of_forall_not_mem (b := Proc.devRef .tc _) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepD7 (c : Dev nD) : W7 m ρ c (Proc.devRef .tc main_v18) = W6 m ρ c (Proc.devRef .tc main_v18) :=
  StableHlo.after_of_forall_not_mem (b := Proc.devRef .tc _) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepB8 (c : Dev nD) (b : Ref sig .tc) (hb : b ∈ carried) :
    W8 m ρ c (Proc.devRef .tc b) = W7 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact W8_of_ne m ρ c _ (by decide)
theorem keepD8 (c : Dev nD) : W8 m ρ c (Proc.devRef .tc main_v18) = W7 m ρ c (Proc.devRef .tc main_v18) :=
  (W8_arr m ρ c 1).trans (((dat1 (V7 m ρ) c).arrAt_in 1 rfl _).trans (A_eq1 (V7 m ρ) c 1))
theorem keepB9 (c : Dev nD) (b : Ref sig .tc) (hb : b ∈ carried) :
    W9 m ρ c (Proc.devRef .tc b) = W8 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact StableHlo.after_of_forall_not_mem (b := Proc.devRef .tc _) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepD9 (c : Dev nD) : W9 m ρ c (Proc.devRef .tc main_v18) = W8 m ρ c (Proc.devRef .tc main_v18) :=
  StableHlo.after_of_forall_not_mem (b := Proc.devRef .tc _) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepB10 (c : Dev nD) (b : Ref sig .tc) (hb : b ∈ carried) :
    W10 m ρ c (Proc.devRef .tc b) = W9 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact W10_of_ne m ρ c _ (by decide)
theorem keepD10 (c : Dev nD) : W10 m ρ c (Proc.devRef .tc main_v18) = W9 m ρ c (Proc.devRef .tc main_v18) :=
  (W10_arr m ρ c 1).trans (((dat2 (V9 m ρ) c).arrAt_in 1 rfl _).trans (A_eq2 (V9 m ρ) c 1))
theorem keepB11 (c : Dev nD) (b : Ref sig .tc) (hb : b ∈ carried) :
    W11 m ρ c (Proc.devRef .tc b) = W10 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact StableHlo.after_of_forall_not_mem (b := Proc.devRef .tc _) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepD11 (c : Dev nD) : W11 m ρ c (Proc.devRef .tc main_v18) = W10 m ρ c (Proc.devRef .tc main_v18) :=
  StableHlo.after_of_forall_not_mem (b := Proc.devRef .tc _) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepB12 (c : Dev nD) (b : Ref sig .tc) (hb : b ∈ carried) :
    W12 m ρ c (Proc.devRef .tc b) = W11 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact W12_of_ne m ρ c _ (by decide)
theorem keepD12 (c : Dev nD) : W12 m ρ c (Proc.devRef .tc main_v18) = W11 m ρ c (Proc.devRef .tc main_v18) :=
  (W12_arr m ρ c 1).trans (((dat3 (V11 m ρ) c).arrAt_in 1 rfl _).trans (A_eq3 (V11 m ρ) c 1))
theorem keepB13 (c : Dev nD) (b : Ref sig .tc) (hb : b ∈ carried) :
    W13 m ρ c (Proc.devRef .tc b) = W12 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact StableHlo.after_of_forall_not_mem (b := Proc.devRef .tc _) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepD13 (c : Dev nD) : W13 m ρ c (Proc.devRef .tc main_v18) = W12 m ρ c (Proc.devRef .tc main_v18) :=
  StableHlo.after_of_forall_not_mem (b := Proc.devRef .tc _) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepB14 (c : Dev nD) (b : Ref sig .tc) (hb : b ∈ carried) :
    W14 m ρ c (Proc.devRef .tc b) = W13 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact W14_of_ne m ρ c _ (by decide)
theorem keepD14 (c : Dev nD) : W14 m ρ c (Proc.devRef .tc main_v18) = W13 m ρ c (Proc.devRef .tc main_v18) :=
  (W14_arr m ρ c 1).trans (((dat4 (V13 m ρ) c).arrAt_in 1 rfl _).trans (A_eq4 (V13 m ρ) c 1))
theorem keepB15 (c : Dev nD) (b : Ref sig .tc) (hb : b ∈ carried) :
    W15 m ρ c (Proc.devRef .tc b) = W14 m ρ c (Proc.devRef .tc b) := by
  simp only [carried, laterArgs, List.mem_cons, List.mem_nil_iff, or_false, List.mem_append] at hb
  rcases hb with rfl | rfl | rfl | rfl | rfl | rfl | rfl | rfl | rfl | rfl | rfl
  all_goals exact StableHlo.after_of_forall_not_mem (b := Proc.devRef .tc _) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keepD15 (c : Dev nD) : W15 m ρ c (Proc.devRef .tc main_v18) = W14 m ρ c (Proc.devRef .tc main_v18) :=
  StableHlo.after_of_forall_not_mem (b := Proc.devRef .tc _) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem toLaunch5 (c : Dev nD) (b : Ref sig .tc) (hb : b ∈ laterArgs) :
    W5 m ρ c (Proc.devRef .tc b) = m ((c : Thread nD τ).loc b) :=
  (keepA5 m ρ c b hb).trans ((keepA4 m ρ c b hb).trans ((keepA3 m ρ c b hb).trans ((keepA2 m ρ c b hb).trans (keepA1 m ρ c b hb))))
theorem to5_6 (c : Dev nD) (b : Ref sig .tc) (hb : b ∈ carried) :
    W6 m ρ c (Proc.devRef .tc b) = W5 m ρ c (Proc.devRef .tc b) :=
  (keepB6 m ρ c b hb).trans rfl
theorem d5_6 (c : Dev nD) : W6 m ρ c (Proc.devRef .tc main_v18) = W5 m ρ c (Proc.devRef .tc main_v18) :=
  (keepD6 m ρ c).trans rfl
theorem to5_7 (c : Dev nD) (b : Ref sig .tc) (hb : b ∈ carried) :
    W7 m ρ c (Proc.devRef .tc b) = W5 m ρ c (Proc.devRef .tc b) :=
  (keepB7 m ρ c b hb).trans (to5_6 m ρ c b hb)
theorem d5_7 (c : Dev nD) : W7 m ρ c (Proc.devRef .tc main_v18) = W5 m ρ c (Proc.devRef .tc main_v18) :=
  (keepD7 m ρ c).trans (d5_6 m ρ c)
theorem to5_8 (c : Dev nD) (b : Ref sig .tc) (hb : b ∈ carried) :
    W8 m ρ c (Proc.devRef .tc b) = W5 m ρ c (Proc.devRef .tc b) :=
  (keepB8 m ρ c b hb).trans (to5_7 m ρ c b hb)
theorem d5_8 (c : Dev nD) : W8 m ρ c (Proc.devRef .tc main_v18) = W5 m ρ c (Proc.devRef .tc main_v18) :=
  (keepD8 m ρ c).trans (d5_7 m ρ c)
theorem to5_9 (c : Dev nD) (b : Ref sig .tc) (hb : b ∈ carried) :
    W9 m ρ c (Proc.devRef .tc b) = W5 m ρ c (Proc.devRef .tc b) :=
  (keepB9 m ρ c b hb).trans (to5_8 m ρ c b hb)
theorem d5_9 (c : Dev nD) : W9 m ρ c (Proc.devRef .tc main_v18) = W5 m ρ c (Proc.devRef .tc main_v18) :=
  (keepD9 m ρ c).trans (d5_8 m ρ c)
theorem to5_10 (c : Dev nD) (b : Ref sig .tc) (hb : b ∈ carried) :
    W10 m ρ c (Proc.devRef .tc b) = W5 m ρ c (Proc.devRef .tc b) :=
  (keepB10 m ρ c b hb).trans (to5_9 m ρ c b hb)
theorem d5_10 (c : Dev nD) : W10 m ρ c (Proc.devRef .tc main_v18) = W5 m ρ c (Proc.devRef .tc main_v18) :=
  (keepD10 m ρ c).trans (d5_9 m ρ c)
theorem to5_11 (c : Dev nD) (b : Ref sig .tc) (hb : b ∈ carried) :
    W11 m ρ c (Proc.devRef .tc b) = W5 m ρ c (Proc.devRef .tc b) :=
  (keepB11 m ρ c b hb).trans (to5_10 m ρ c b hb)
theorem d5_11 (c : Dev nD) : W11 m ρ c (Proc.devRef .tc main_v18) = W5 m ρ c (Proc.devRef .tc main_v18) :=
  (keepD11 m ρ c).trans (d5_10 m ρ c)
theorem to5_12 (c : Dev nD) (b : Ref sig .tc) (hb : b ∈ carried) :
    W12 m ρ c (Proc.devRef .tc b) = W5 m ρ c (Proc.devRef .tc b) :=
  (keepB12 m ρ c b hb).trans (to5_11 m ρ c b hb)
theorem d5_12 (c : Dev nD) : W12 m ρ c (Proc.devRef .tc main_v18) = W5 m ρ c (Proc.devRef .tc main_v18) :=
  (keepD12 m ρ c).trans (d5_11 m ρ c)
theorem to5_13 (c : Dev nD) (b : Ref sig .tc) (hb : b ∈ carried) :
    W13 m ρ c (Proc.devRef .tc b) = W5 m ρ c (Proc.devRef .tc b) :=
  (keepB13 m ρ c b hb).trans (to5_12 m ρ c b hb)
theorem d5_13 (c : Dev nD) : W13 m ρ c (Proc.devRef .tc main_v18) = W5 m ρ c (Proc.devRef .tc main_v18) :=
  (keepD13 m ρ c).trans (d5_12 m ρ c)
theorem to5_14 (c : Dev nD) (b : Ref sig .tc) (hb : b ∈ carried) :
    W14 m ρ c (Proc.devRef .tc b) = W5 m ρ c (Proc.devRef .tc b) :=
  (keepB14 m ρ c b hb).trans (to5_13 m ρ c b hb)
theorem d5_14 (c : Dev nD) : W14 m ρ c (Proc.devRef .tc main_v18) = W5 m ρ c (Proc.devRef .tc main_v18) :=
  (keepD14 m ρ c).trans (d5_13 m ρ c)
theorem to5_15 (c : Dev nD) (b : Ref sig .tc) (hb : b ∈ carried) :
    W15 m ρ c (Proc.devRef .tc b) = W5 m ρ c (Proc.devRef .tc b) :=
  (keepB15 m ρ c b hb).trans (to5_14 m ρ c b hb)
theorem d5_15 (c : Dev nD) : W15 m ρ c (Proc.devRef .tc main_v18) = W5 m ρ c (Proc.devRef .tc main_v18) :=
  (keepD15 m ρ c).trans (d5_14 m ρ c)

set_option maxHeartbeats 8000000 in
/-- Host stretch 1: the aggregate of launch 0's result over the edge list. -/
theorem seg1 (c : Dev nD) :
    W7 m ρ c (Proc.devRef .tc main_v33)
      = aggK (W6 m ρ c (Proc.devRef .tc main_v7)) (W6 m ρ c (Proc.devRef .tc main_v19))
          (W6 m ρ c (Proc.devRef .tc main_v21)) := by
  show StableHlo.after hostOps1 (W6 m ρ c) (Proc.devRef .tc main_v33) = _
  after_results <;> rfl

set_option maxHeartbeats 8000000 in
/-- Host stretch 1: the bias laid out as one row. -/
theorem bias1 (c : Dev nD) :
    W7 m ρ c (Proc.devRef .tc main_v34)
      = shapeCast S1x128 (W6 m ρ c (Proc.devRef .tc main_arg3)) shapeCasts_S128_S1x128 := by
  show StableHlo.after hostOps1 (W6 m ρ c) (Proc.devRef .tc main_v34) = _
  after_results <;> rfl

set_option maxHeartbeats 8000000 in
/-- Host stretch 1: the weights transposed. -/
theorem wt1 (c : Dev nD) :
    W7 m ρ c (Proc.devRef .tc main_v35)
      = transpose S128x128 [1, 0] (W6 m ρ c (Proc.devRef .tc main_arg4)) transposes_S128x128_S128x128_1_0 := by
  show StableHlo.after hostOps1 (W6 m ρ c) (Proc.devRef .tc main_v35) = _
  after_results <;> rfl

set_option maxHeartbeats 8000000 in
/-- Host stretch 2: the aggregate of launch 1's result over the edge list. -/
theorem seg2 (c : Dev nD) :
    W9 m ρ c (Proc.devRef .tc main_v48)
      = aggK (W8 m ρ c (Proc.devRef .tc main_v7)) (W8 m ρ c (Proc.devRef .tc main_v19))
          (W8 m ρ c (Proc.devRef .tc main_v36)) := by
  show StableHlo.after hostOps2 (W8 m ρ c) (Proc.devRef .tc main_v48) = _
  after_results <;> rfl

set_option maxHeartbeats 8000000 in
/-- Host stretch 2: the bias laid out as one row. -/
theorem bias2 (c : Dev nD) :
    W9 m ρ c (Proc.devRef .tc main_v49)
      = shapeCast S1x128 (W8 m ρ c (Proc.devRef .tc main_arg5)) shapeCasts_S128_S1x128 := by
  show StableHlo.after hostOps2 (W8 m ρ c) (Proc.devRef .tc main_v49) = _
  after_results <;> rfl

set_option maxHeartbeats 8000000 in
/-- Host stretch 2: the weights transposed. -/
theorem wt2 (c : Dev nD) :
    W9 m ρ c (Proc.devRef .tc main_v50)
      = transpose S128x128 [1, 0] (W8 m ρ c (Proc.devRef .tc main_arg6)) transposes_S128x128_S128x128_1_0 := by
  show StableHlo.after hostOps2 (W8 m ρ c) (Proc.devRef .tc main_v50) = _
  after_results <;> rfl

set_option maxHeartbeats 8000000 in
/-- Host stretch 3: the aggregate of launch 2's result over the edge list. -/
theorem seg3 (c : Dev nD) :
    W11 m ρ c (Proc.devRef .tc main_v63)
      = aggK (W10 m ρ c (Proc.devRef .tc main_v7)) (W10 m ρ c (Proc.devRef .tc main_v19))
          (W10 m ρ c (Proc.devRef .tc main_v51)) := by
  show StableHlo.after hostOps3 (W10 m ρ c) (Proc.devRef .tc main_v63) = _
  after_results <;> rfl

set_option maxHeartbeats 8000000 in
/-- Host stretch 3: the bias laid out as one row. -/
theorem bias3 (c : Dev nD) :
    W11 m ρ c (Proc.devRef .tc main_v64)
      = shapeCast S1x128 (W10 m ρ c (Proc.devRef .tc main_arg7)) shapeCasts_S128_S1x128 := by
  show StableHlo.after hostOps3 (W10 m ρ c) (Proc.devRef .tc main_v64) = _
  after_results <;> rfl

set_option maxHeartbeats 8000000 in
/-- Host stretch 3: the weights transposed. -/
theorem wt3 (c : Dev nD) :
    W11 m ρ c (Proc.devRef .tc main_v65)
      = transpose S128x128 [1, 0] (W10 m ρ c (Proc.devRef .tc main_arg8)) transposes_S128x128_S128x128_1_0 := by
  show StableHlo.after hostOps3 (W10 m ρ c) (Proc.devRef .tc main_v65) = _
  after_results <;> rfl

set_option maxHeartbeats 8000000 in
/-- Host stretch 4: the aggregate of launch 3's result over the edge list. -/
theorem seg4 (c : Dev nD) :
    W13 m ρ c (Proc.devRef .tc main_v78)
      = aggK (W12 m ρ c (Proc.devRef .tc main_v7)) (W12 m ρ c (Proc.devRef .tc main_v19))
          (W12 m ρ c (Proc.devRef .tc main_v66)) := by
  show StableHlo.after hostOps4 (W12 m ρ c) (Proc.devRef .tc main_v78) = _
  after_results <;> rfl

set_option maxHeartbeats 8000000 in
/-- Host stretch 4: the bias laid out as one row. -/
theorem bias4 (c : Dev nD) :
    W13 m ρ c (Proc.devRef .tc main_v79)
      = shapeCast S1x128 (W12 m ρ c (Proc.devRef .tc main_arg9)) shapeCasts_S128_S1x128 := by
  show StableHlo.after hostOps4 (W12 m ρ c) (Proc.devRef .tc main_v79) = _
  after_results <;> rfl

set_option maxHeartbeats 8000000 in
/-- Host stretch 4: the weights transposed. -/
theorem wt4 (c : Dev nD) :
    W13 m ρ c (Proc.devRef .tc main_v80)
      = transpose S128x128 [1, 0] (W12 m ρ c (Proc.devRef .tc main_arg10)) transposes_S128x128_S128x128_1_0 := by
  show StableHlo.after hostOps4 (W12 m ρ c) (Proc.devRef .tc main_v80) = _
  after_results <;> rfl

set_option maxHeartbeats 8000000 in
/-- Host stretch 5: the aggregate of launch 4's result over the edge list. -/
theorem seg5 (c : Dev nD) :
    W15 m ρ c (Proc.devRef .tc main_v93)
      = aggK (W14 m ρ c (Proc.devRef .tc main_v7)) (W14 m ρ c (Proc.devRef .tc main_v19))
          (W14 m ρ c (Proc.devRef .tc main_v81)) := by
  show StableHlo.after hostOps5 (W14 m ρ c) (Proc.devRef .tc main_v93) = _
  after_results <;> rfl

set_option maxHeartbeats 8000000 in
/-- Host stretch 5: the bias laid out as one row. -/
theorem bias5 (c : Dev nD) :
    W15 m ρ c (Proc.devRef .tc main_v94)
      = shapeCast S1x128 (W14 m ρ c (Proc.devRef .tc main_arg11)) shapeCasts_S128_S1x128 := by
  show StableHlo.after hostOps5 (W14 m ρ c) (Proc.devRef .tc main_v94) = _
  after_results <;> rfl

end Cert.KernelIdeal.RegVal

end
-- ==== Proof.KDefs.lean ====
/-
  The vectors the kernel program's host operations build from the edge list before the first launch (floats are
  extended reals): the source and target index of every slot (the edges, then one self loop per node), the validity
  bits (an edge whose ends differ, and every self loop), the slot weights (the bits as 0 / 1), the degrees,
  `dinv = 1/√deg` where `deg > 0` and 0 elsewhere, and the adjusted source index (the source where the slot is valid,
  else 100000: the number of the zero row a padded table gets).
-/
import proofs.«113241_j59012850647682_2_alg».proof.Proof.Gen.KernelIdeal
import Idealize.ShloMosaic.PureOps.Ideal.Laws

set_option maxRecDepth 16384

noncomputable section

namespace Cert.KernelIdeal.RegVal

open Cert.KernelIdeal Cert.KernelIdeal.Gen Idealize.ShloMosaic

def srcK (ei : IVec S2x640000 32) : IVec S640000 32 :=
  shapeCast _ (extractStridedSlice S1x640000 ![0, 0] ei slices_S2x640000_S1x640000_0_0) shapeCasts_S1x640000_S640000
def dstK (ei : IVec S2x640000 32) : IVec S640000 32 :=
  shapeCast _ (extractStridedSlice S1x640000 ![1, 0] ei slices_S2x640000_S1x640000_1_0) shapeCasts_S1x640000_S640000
/-- A vector of edge ends followed by the node numbers: the self loops. -/
def withLoopsK (v : IVec S640000 32) : IVec S740000 32 :=
  concatenate S740000 0 [⟨S640000, v⟩, ⟨S100000, iotaInDim S100000 32 0⟩] concatenates_S640000_S100000_S740000_d0
/-- The validity bits: an edge whose ends differ, and every self loop. -/
def validAll (ei : IVec S2x640000 32) : IVec S740000 1 :=
  concatenate S740000 0 [⟨S640000, cmpi .ne (srcK ei) (dstK ei)⟩,
    ⟨S100000, broadcastInDim S100000 ![] bcast_S_S100000 (constantI S_ 1 1#1)⟩] concatenates_S640000_S100000_S740000_d0
/-- The slot weights. -/
def ewK (ei : IVec S2x640000 32) : FVec Ideal S740000 .f32 := uitofp .f32 (validAll ei)
/-- The degrees. -/
def degK (col : IVec S740000 32) (ew : FVec Ideal S740000 .f32) : FVec Ideal S100000 .f32 :=
  Host.scatterAdd scatter_S100000_S740000x1_S740000_n_0_0_1
    (broadcastInDim S100000 ![] bcast_S_S100000 (constant S_ .f32 0x00000000#32))
    (broadcastInDim S740000x1 ![0] bcast_S740000_S740000x1_0 col) ew
/-- `1/√deg` where `deg > 0`, else 0. -/
def dinvK (deg : FVec Ideal S100000 .f32) : FVec Ideal S100000 .f32 :=
  select (cmpf .ogt deg (broadcastInDim S100000 ![] bcast_S_S100000 (constant S_ .f32 0x00000000#32)))
    (Host.rsqrt deg) (broadcastInDim S100000 ![] bcast_S_S100000 (id (constant S_ .f32 0x00000000#32)))
/-- The adjusted source index. -/
def rowAdjK (valid : IVec S740000 1) (row : IVec S740000 32) : IVec S740000 32 :=
  select valid row (broadcastInDim S740000 ![] bcast_S_S740000 (id (constantI S_ 32 100000#32)))

end Cert.KernelIdeal.RegVal

end
-- ==== Proof.KPre.lean ====
/-
  What the segment boundary at the first launch holds (floats are extended reals): the target indices, the adjusted
  source indices, the degree column, the features and the first weights transposed, each read off the host operations
  that run before the first launch as the function of the edge list and the arguments that the definitions name.
-/
import proofs.«113241_j59012850647682_2_alg».proof.Proof.Gen.KernelIdeal.Frame
import proofs.«113241_j59012850647682_2_alg».proof.Proof.KDefs
import Idealize.ShloMosaic.Lib.StableHlo.Run
import Idealize.ShloMosaic.PureOps.Ideal.Laws

set_option maxRecDepth 200000

noncomputable section

namespace Cert.KernelIdeal.RegVal

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 16000000 in
/-- At the first launch: the target indices. -/
theorem col5 (c : Dev nD) : W5 m ρ c (Proc.devRef .tc main_v7) = withLoopsK (dstK (m ((c : Thread nD τ).loc main_arg1))) := by
  show StableHlo.after hostOps0_4 (W4 m ρ c) (Proc.devRef .tc main_v7) = _
  after_results <;> rfl
set_option maxHeartbeats 16000000 in
/-- At the first launch: the adjusted source indices. -/
theorem rowAdj5 (c : Dev nD) : W5 m ρ c (Proc.devRef .tc main_v19) = rowAdjK (validAll (m ((c : Thread nD τ).loc main_arg1))) (withLoopsK (srcK (m ((c : Thread nD τ).loc main_arg1)))) := by
  show StableHlo.after hostOps0_4 (W4 m ρ c) (Proc.devRef .tc main_v19) = _
  after_results <;> rfl
/-! The degree column, one host stretch at a time; each stretch is read over any contents `W` of the buffers it finds. -/

set_option maxHeartbeats 16000000 in
theorem pass5_v18 (W : Valuation τ sig (Elt Ideal)) :
    StableHlo.after hostOps0_4 W (Proc.devRef .tc main_v18) = W (Proc.devRef .tc main_v18) := by
  after_results <;> rfl

set_option maxHeartbeats 16000000 in
theorem pass4_v18 (W : Valuation τ sig (Elt Ideal)) :
    StableHlo.after hostOps0_3 W (Proc.devRef .tc main_v18) = W (Proc.devRef .tc main_v18) := by
  after_results <;> rfl

set_option maxHeartbeats 16000000 in
theorem read3_v18 (W : Valuation τ sig (Elt Ideal)) :
    StableHlo.after hostOps0_2 W (Proc.devRef .tc main_v18) = shapeCast S100000x1 (W (Proc.devRef .tc main_v17)) shapeCasts_S100000_S100000x1 := by
  after_results <;> rfl

set_option maxHeartbeats 16000000 in
theorem read2_v17 (W : Valuation τ sig (Elt Ideal)) :
    StableHlo.after hostOps0_1 W (Proc.devRef .tc main_v17) = select (W (Proc.devRef .tc main_v15)) (W (Proc.devRef .tc main_v16)) (broadcastInDim S100000 ![] bcast_S_S100000 (id (W (Proc.devRef .tc main_cst_1)))) := by
  after_results <;> rfl

set_option maxHeartbeats 16000000 in
theorem at1_v15 (c : Dev nD) : W1 m ρ c (Proc.devRef .tc main_v15)
    = cmpf .ogt (degK (withLoopsK (dstK (m ((c : Thread nD τ).loc main_arg1)))) (ewK (m ((c : Thread nD τ).loc main_arg1)))) (broadcastInDim S100000 ![] bcast_S_S100000 (constant S_ .f32 0x00000000#32)) := by
  show StableHlo.after hostOps0 (W0 m ρ c) (Proc.devRef .tc main_v15) = _
  after_results <;> rfl
set_option maxHeartbeats 16000000 in
theorem at1_v16 (c : Dev nD) : W1 m ρ c (Proc.devRef .tc main_v16) = Host.rsqrt (degK (withLoopsK (dstK (m ((c : Thread nD τ).loc main_arg1)))) (ewK (m ((c : Thread nD τ).loc main_arg1)))) := by
  show StableHlo.after hostOps0 (W0 m ρ c) (Proc.devRef .tc main_v16) = _
  after_results <;> rfl
set_option maxHeartbeats 16000000 in
theorem at1_cst (c : Dev nD) : W1 m ρ c (Proc.devRef .tc main_cst_1) = constant (F := Ideal) S_ .f32 0x00000000#32 := by
  show StableHlo.after hostOps0 (W0 m ρ c) (Proc.devRef .tc main_cst_1) = _
  after_results <;> rfl

/-- At the first launch: the degree column. -/
theorem dcol5 (c : Dev nD) : W5 m ρ c (Proc.devRef .tc main_v18)
    = shapeCast S100000x1 (dinvK (degK (withLoopsK (dstK (m ((c : Thread nD τ).loc main_arg1)))) (ewK (m ((c : Thread nD τ).loc main_arg1))))) shapeCasts_S100000_S100000x1 :=
  (pass5_v18 (W4 m ρ c)).trans ((pass4_v18 (W3 m ρ c)).trans ((read3_v18 (W2 m ρ c)).trans
    (congrArg (fun v => shapeCast S100000x1 v shapeCasts_S100000_S100000x1)
      ((read2_v17 (W1 m ρ c)).trans (by rw [at1_v15, at1_v16, at1_cst]; rfl)))))
set_option maxHeartbeats 16000000 in
/-- At the first launch: the features. -/
theorem x5 (c : Dev nD) : W5 m ρ c (Proc.devRef .tc main_arg0) = m ((c : Thread nD τ).loc main_arg0) := by
  show StableHlo.after hostOps0_4 (W4 m ρ c) (Proc.devRef .tc main_arg0) = _
  after_results <;> rfl
set_option maxHeartbeats 16000000 in
/-- At the first launch: the first weights transposed. -/
theorem wt5 (c : Dev nD) : W5 m ρ c (Proc.devRef .tc main_v20) = transpose S128x128 [1, 0] (m ((c : Thread nD τ).loc main_arg2)) transposes_S128x128_S128x128_1_0 := by
  show StableHlo.after hostOps0_4 (W4 m ρ c) (Proc.devRef .tc main_v20) = _
  after_results <;> rfl

end Cert.KernelIdeal.RegVal

end
-- ==== Proof.KFns.lean ====
/-
  The three whole-array functions the kernel's launches compute (floats are extended reals). `D` is a column with one
  entry per node, `W` a 128 × 128 weight matrix, `B` a one-row bias.

  * `scaledProd X D W`   : `T[r,c] = D[r] · ∑ₖ X[r,k] · W[k,c]` — a linear layer, each row scaled by its node's entry of `D`;
  * `fusedLayer G D B W` : `T[r,c] = D[r] · ∑ₖ max (D[r] · G[r,k] + B[k]) 0 · W[k,c]` — the previous layer's aggregate `G`
                             scaled, biased and clamped at zero, then the next linear layer, scaled again;
  * `scaleAdd G D B`     : `O[r,c] = D[r] · G[r,c] + B[c]` — the last layer's aggregate scaled and biased.
-/
import proofs.«113241_j59012850647682_2_alg».proof.KernelIdeal
import Idealize.ShloMosaic.Lib.ValueIdx
import Idealize.ShloMosaic.PureOps.Ideal.Laws

set_option maxRecDepth 16384

noncomputable section

namespace Cert.KernelIdeal.RegVal

open Cert.KernelIdeal Idealize.ShloMosaic Idealize.ShloMosaic.ValueIdx

/-- `D[r] · ∑ₖ X[r,k] · W[k,c]` at `i = (r, c)`. -/
def scaledProd (X : S100000x128.Idx → EReal) (D : S100000x1.Idx → EReal) (W : S128x128.Idx → EReal) :
    S100000x128.Idx → EReal :=
  fun i => D (ix2 (i 0) 0) * ∑ k : Fin 128, X (ix2 (i 0) k) * W (ix2 k (i 1))

/-- `D[r] · ∑ₖ max (D[r] · G[r,k] + B[k]) 0 · W[k,c]` at `i = (r, c)`. -/
def fusedLayer (G : S100000x128.Idx → EReal) (D : S100000x1.Idx → EReal) (B : S1x128.Idx → EReal)
    (W : S128x128.Idx → EReal) : S100000x128.Idx → EReal :=
  fun i => D (ix2 (i 0) 0)
    * ∑ k : Fin 128, max (D (ix2 (i 0) 0) * G (ix2 (i 0) k) + B (ix2 0 k)) (Ideal.ofBits .f32 0x00000000#32) * W (ix2 k (i 1))

/-- `D[r] · G[r,c] + B[c]` at `i = (r, c)`. -/
def scaleAdd (G : S100000x128.Idx → EReal) (D : S100000x1.Idx → EReal) (B : S1x128.Idx → EReal) :
    S100000x128.Idx → EReal :=
  fun i => D (ix2 (i 0) 0) * G i + B (ix2 0 (i 1))

theorem hz : (![0, 0] : Fin 2 → Nat) = fun _ => 0 := funext fun a => by fin_cases a <;> rfl

end Cert.KernelIdeal.RegVal

end
-- ==== Proof.LibPlainDot.lean ====
/-
  General lemmas at the ideal instance (floats are extended reals) for a plain two-dimensional contraction
  `[M, K] × [K, N] → [M, N]` and for the row broadcasts that go with it, each read at an index.

  * `PlainDot.sum_contr`: the sum over the one-axis contraction index of a plain dot is the sum over `k : Fin K` of
    the left operand at `(row, k)` times the right operand at `(k, column)`.
  * `PlainDot.matmul_zero_apply` / `PlainDot.dotGeneral_apply`: the matrix unit's product into a zero accumulator and
    the host's `dot_general` are both that sum.
  * the row forms of a broadcast: a `[1, N]` array broadcast over `M` rows reads its one row; a vector of `N` entries
    re-laid as one row `[1, N]` (by a reshape or by a broadcast along a new leading axis) reads the vector.
  * `PlainDot.affineAt`: `(∑ₖ A[r,k]·Wl[k,c]) + (∑ₖ H[r,k]·Wr[k,c]) + b[c]` clamped below by `z` (a two-operand affine map
    followed by `max · z`), and `PlainDot.linAt`: `(∑ₖ P[r,k]·W[k,c]) + b[c]`; the host's spelling and the kernel
    body's spelling of each are these functions index by index; and the congruence that reads a block's entry as
    an array's entry.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace PlainDot

variable {M K N : Nat}

/-- The sum over a plain dot's contraction index, re-indexed by the one contracted coordinate. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congrArg₂ (· * ·) (congrArg l el) (congrArg r er)

/-- The matrix unit's product into a zero accumulator, at an index. -/
theorem matmul_zero_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant (F := Ideal) ⟨2, ![M, N]⟩ .f32 0x00000000#32) j
      = ∑ k : Fin K, l (ix2 (j 0) k) * r (ix2 k (j 1)) := by
  show FloatOps.matmul (DotDims.plain M K N) prec l r (constant (F := Ideal) ⟨2, ![M, N]⟩ .f32 0x00000000#32) j = _
  rw [Ideal.matmul_constant_zero_apply]
  exact sum_contr l r j

/-- The host's `dot_general`, at an index. -/
theorem dotGeneral_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  show FloatOps.dotGeneral (DotDims.plain M K N) prec .single l r j = _
  rw [Ideal.dotGeneral_apply]
  exact sum_contr l r j

/-! ## Rows -/

section Rows
variable {α : Type}

/-- A one-row array broadcast over `M` rows (`vector.broadcast`) reads its row. -/
theorem broadcastTo_row (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = x (ix2 0 (j 1)) := by
  refine broadcastTo_apply x h j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A one-row array broadcast over `M` rows (`broadcast_in_dim`, both axes kept) reads its row. -/
theorem broadcastInDim_row (x : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h x j = x (ix2 0 (j 1)) := by
  refine broadcastInDim_apply ![0, 1] h x j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A vector laid out as one row by a broadcast along a new leading axis. -/
theorem broadcastInDim_vec_row (b : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h b j = b (ix1 (j 1)) := by
  refine broadcastInDim_apply ![1] h b j (ix1 (j 1)) fun a => ?_
  match a with
  | ⟨0, _⟩ =>
    show (j 1).val = if N = 1 then 0 else (j 1).val
    split_ifs with hN
    · have := (j 1).isLt; simp only [Matrix.cons_val_one, Matrix.cons_val_zero] at this; omega
    · rfl

/-- A vector laid out as one row by a reshape. -/
theorem shapeCast_vec_row (b : (⟨1, ![N]⟩ : Shape).Idx → α) (h : (⟨1, ![N]⟩ : Shape).ShapeCasts ⟨2, ![1, N]⟩)
    (j : (⟨2, ![1, N]⟩ : Shape).Idx) : shapeCast ⟨2, ![1, N]⟩ b h j = b (ix1 (j 1)) := by
  refine (shapeCast_addUnit_apply ![N] b h j).trans (congrArg b (funext fun a => ?_))
  match a with
  | ⟨0, _⟩ => rfl

/-- The two layouts of a vector as one row are one array. -/
theorem shapeCast_eq_broadcastInDim_row (b : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ b h = broadcastInDim ⟨2, ![1, N]⟩ ![1] h' b :=
  funext fun j => (shapeCast_vec_row b h j).trans (broadcastInDim_vec_row b h' j).symm

/-- A scalar broadcast to any shape reads the scalar. -/
theorem broadcastInDim_scalar {t : Shape} (x : (⟨0, ![]⟩ : Shape).Idx → α)
    (h : (⟨0, ![]⟩ : Shape).BroadcastsInDim t ![]) (j : t.Idx) : broadcastInDim t ![] h x j = x ix0 :=
  broadcastInDim_apply ![] h x j ix0 fun a => a.elim0

end Rows

/-! ## The two affine maps, index by index -/

/-- `max ((∑ₖ A[r,k]·Wl[k,c]) + (∑ₖ H[r,k]·Wr[k,c]) + B[0,c]) z` at `j = (r, c)`. -/
def affineAt (A H : (⟨2, ![M, K]⟩ : Shape).Idx → EReal) (Wl Wr : (⟨2, ![K, N]⟩ : Shape).Idx → EReal)
    (B : (⟨2, ![1, N]⟩ : Shape).Idx → EReal) (z : EReal) (j : (⟨2, ![M, N]⟩ : Shape).Idx) : EReal :=
  max ((∑ k : Fin K, A (ix2 (j 0) k) * Wl (ix2 k (j 1))) + (∑ k : Fin K, H (ix2 (j 0) k) * Wr (ix2 k (j 1))) + B (ix2 0 (j 1))) z

/-- `(∑ₖ P[r,k]·W[k,c]) + B[0,c]` at `j = (r, c)`. -/
def linAt (P : (⟨2, ![M, K]⟩ : Shape).Idx → EReal) (W : (⟨2, ![K, N]⟩ : Shape).Idx → EReal)
    (B : (⟨2, ![1, N]⟩ : Shape).Idx → EReal) (j : (⟨2, ![M, N]⟩ : Shape).Idx) : EReal :=
  (∑ k : Fin K, P (ix2 (j 0) k) * W (ix2 k (j 1))) + B (ix2 0 (j 1))

/-- An entry of `affineAt` over blocks is the entry of `affineAt` over arrays when the block entries it reads are the
    array entries at the matching row and column. -/
theorem affineAt_congr {P : Nat} (a h : (⟨2, ![P, K]⟩ : Shape).Idx → EReal) (wl wr : (⟨2, ![K, N]⟩ : Shape).Idx → EReal)
    (b : (⟨2, ![1, N]⟩ : Shape).Idx → EReal) (A H : (⟨2, ![M, K]⟩ : Shape).Idx → EReal)
    (Wl Wr : (⟨2, ![K, N]⟩ : Shape).Idx → EReal) (B : (⟨2, ![1, N]⟩ : Shape).Idx → EReal) (z : EReal)
    (y : (⟨2, ![P, N]⟩ : Shape).Idx) (i : (⟨2, ![M, N]⟩ : Shape).Idx)
    (ha : ∀ k : Fin K, a (ix2 (y 0) k) = A (ix2 (i 0) k)) (hh : ∀ k : Fin K, h (ix2 (y 0) k) = H (ix2 (i 0) k))
    (hwl : ∀ k : Fin K, wl (ix2 k (y 1)) = Wl (ix2 k (i 1))) (hwr : ∀ k : Fin K, wr (ix2 k (y 1)) = Wr (ix2 k (i 1)))
    (hb : b (ix2 0 (y 1)) = B (ix2 0 (i 1))) :
    affineAt a h wl wr b z y = affineAt A H Wl Wr B z i := by
  have e1 : (∑ k : Fin K, a (ix2 (y 0) k) * wl (ix2 k (y 1))) = ∑ k : Fin K, A (ix2 (i 0) k) * Wl (ix2 k (i 1)) :=
    Finset.sum_congr rfl fun k _ => by rw [ha k, hwl k]
  have e2 : (∑ k : Fin K, h (ix2 (y 0) k) * wr (ix2 k (y 1))) = ∑ k : Fin K, H (ix2 (i 0) k) * Wr (ix2 k (i 1)) :=
    Finset.sum_congr rfl fun k _ => by rw [hh k, hwr k]
  unfold affineAt
  rw [e1, e2, hb]

theorem linAt_congr {P : Nat} (p : (⟨2, ![P, K]⟩ : Shape).Idx → EReal) (w : (⟨2, ![K, N]⟩ : Shape).Idx → EReal)
    (b : (⟨2, ![1, N]⟩ : Shape).Idx → EReal) (Pa : (⟨2, ![M, K]⟩ : Shape).Idx → EReal)
    (W : (⟨2, ![K, N]⟩ : Shape).Idx → EReal) (B : (⟨2, ![1, N]⟩ : Shape).Idx → EReal)
    (y : (⟨2, ![P, N]⟩ : Shape).Idx) (i : (⟨2, ![M, N]⟩ : Shape).Idx)
    (hp : ∀ k : Fin K, p (ix2 (y 0) k) = Pa (ix2 (i 0) k)) (hw : ∀ k : Fin K, w (ix2 k (y 1)) = W (ix2 k (i 1)))
    (hb : b (ix2 0 (y 1)) = B (ix2 0 (i 1))) :
    linAt p w b y = linAt Pa W B i := by
  have e1 : (∑ k : Fin K, p (ix2 (y 0) k) * w (ix2 k (y 1))) = ∑ k : Fin K, Pa (ix2 (i 0) k) * W (ix2 k (i 1)) :=
    Finset.sum_congr rfl fun k _ => by rw [hp k, hw k]
  unfold linAt
  rw [e1, hb]

/-- The host's spelling of the clamped affine map: two `dot_general`s added, a one-row bias broadcast over the rows
    added, `maximum` with a broadcast zero scalar. -/
theorem host_affine_apply (A H : FVec Ideal ⟨2, ![M, K]⟩ .f32) (Wl Wr : FVec Ideal ⟨2, ![K, N]⟩ .f32)
    (B : FVec Ideal ⟨2, ![1, N]⟩ .f32)
    (hb : (⟨2, ![1, N]⟩ : Shape).BroadcastsInDim ⟨2, ![M, N]⟩ ![0, 1])
    (hz : (⟨0, ![]⟩ : Shape).BroadcastsInDim ⟨2, ![M, N]⟩ ![]) (j : (⟨2, ![M, N]⟩ : Shape).Idx) :
    maximumf (addf (addf (Host.dotGeneral (DotDims.plain M K N) none A Wl) (Host.dotGeneral (DotDims.plain M K N) none H Wr))
        (broadcastInDim ⟨2, ![M, N]⟩ ![0, 1] hb B))
      (broadcastInDim ⟨2, ![M, N]⟩ ![] hz (constant (F := Ideal) ⟨0, ![]⟩ .f32 0x00000000#32)) j
      = affineAt A H Wl Wr B (Ideal.ofBits .f32 0x00000000#32) j := by
  rw [maximumf_apply, addf_apply, addf_apply, dotGeneral_apply, dotGeneral_apply, broadcastInDim_row, broadcastInDim_scalar]
  rfl

/-- The host's spelling of the plain affine map. -/
theorem host_lin_apply (P : FVec Ideal ⟨2, ![M, K]⟩ .f32) (W : FVec Ideal ⟨2, ![K, N]⟩ .f32)
    (B : FVec Ideal ⟨2, ![1, N]⟩ .f32)
    (hb : (⟨2, ![1, N]⟩ : Shape).BroadcastsInDim ⟨2, ![M, N]⟩ ![0, 1]) (j : (⟨2, ![M, N]⟩ : Shape).Idx) :
    addf (Host.dotGeneral (DotDims.plain M K N) none P W) (broadcastInDim ⟨2, ![M, N]⟩ ![0, 1] hb B) j
      = linAt P W B j := by
  rw [addf_apply, dotGeneral_apply, broadcastInDim_row]
  rfl

/-- The kernel body's spelling of the clamped affine map: operands rounded to bf16 (the identity on extended reals),
    two matrix-unit products into zero accumulators added, the one-row bias broadcast added, `maximum` with zero. -/
theorem body_affine_apply (x0 x1 : FVec Ideal ⟨2, ![M, K]⟩ .f32) (x2 x3 : FVec Ideal ⟨2, ![K, N]⟩ .f32)
    (x4 : FVec Ideal ⟨2, ![1, N]⟩ .f32)
    (h0 : (⟨2, ![M, K]⟩ : Shape).ShapeCasts ⟨2, ![M, K]⟩) (h4 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    maximumf (addf (addf
          (matmul (DotDims.plain M K N) none (truncf .bf16 (shapeCast ⟨2, ![M, K]⟩ x0 h0) hlt) (truncf .bf16 x2 hlt)
            (constant (F := Ideal) ⟨2, ![M, N]⟩ .f32 0x00000000#32))
          (matmul (DotDims.plain M K N) none (truncf .bf16 (shapeCast ⟨2, ![M, K]⟩ x1 h0) hlt) (truncf .bf16 x3 hlt)
            (constant (F := Ideal) ⟨2, ![M, N]⟩ .f32 0x00000000#32)))
        (broadcastTo ⟨2, ![M, N]⟩ (shapeCast ⟨2, ![1, N]⟩ x4 h4) hb))
      (broadcast ⟨2, ![M, N]⟩ (Scalar.ofBits (F := Ideal) .f32 0x00000000#32)) j
      = affineAt x0 x1 x2 x3 x4 (Ideal.ofBits .f32 0x00000000#32) j := by
  rw [maximumf_apply, addf_apply, addf_apply, matmul_zero_apply, matmul_zero_apply, broadcastTo_row, shapeCast_self,
    shapeCast_self, shapeCast_self]
  rfl

/-- The kernel body's spelling of the plain affine map. -/
theorem body_lin_apply (x0 : FVec Ideal ⟨2, ![M, K]⟩ .f32) (x1 : FVec Ideal ⟨2, ![K, N]⟩ .f32)
    (x2 : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    addf (matmul (DotDims.plain M K N) none (truncf .bf16 (shapeCast ⟨2, ![M, K]⟩ x0 h0) hlt) (truncf .bf16 x1 hlt)
          (constant (F := Ideal) ⟨2, ![M, N]⟩ .f32 0x00000000#32))
        (broadcastTo ⟨2, ![M, N]⟩ (shapeCast ⟨2, ![1, N]⟩ x2 h2) hb) j
      = linAt x0 x1 x2 j := by
  rw [addf_apply, matmul_zero_apply, broadcastTo_row, shapeCast_self, shapeCast_self]
  rfl

end PlainDot

end
-- ==== Proof.LibCols.lean ====
/-
  General lemmas: the column layouts of a vector, each read at an index.

  * a `[M, 1]` column broadcast over `N` lanes (`vector.broadcast` or `broadcast_in_dim`, both axes kept) reads the
    column's entry in the same row;
  * a vector of `M` entries laid out as a column `[M, 1]` (by a reshape, or by a broadcast along a new trailing axis)
    reads the vector's entry; the two layouts are one array;
  * a column `[K, 1]` re-laid as a row `[1, K]` by a reshape reads the column's entry at the row's lane.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace ColLayout

variable {α : Type} {M N K : Nat}

/-- A column broadcast over `N` lanes (`vector.broadcast`) reads its row's entry. -/
theorem broadcastTo_col (x : (⟨2, ![M, 1]⟩ : Shape).Idx → α) (h : (⟨2, ![M, 1]⟩ : Shape).Broadcasts ⟨2, ![M, N]⟩)
    (j : (⟨2, ![M, N]⟩ : Shape).Idx) : broadcastTo ⟨2, ![M, N]⟩ x h j = x (ix2 (j 0) 0) := by
  refine broadcastTo_apply x h j (ix2 (j 0) 0) fun a => ?_
  match a with
  | ⟨0, _⟩ =>
    show (j 0).val = if M = 1 then 0 else (j 0).val
    split_ifs with hM
    · have := (j 0).isLt; simp only [Matrix.cons_val_zero] at this; omega
    · rfl
  | ⟨1, _⟩ => rfl

/-- A column broadcast over `N` lanes (`broadcast_in_dim`, both axes kept) reads its row's entry. -/
theorem broadcastInDim_col (x : (⟨2, ![M, 1]⟩ : Shape).Idx → α)
    (h : (⟨2, ![M, 1]⟩ : Shape).BroadcastsInDim ⟨2, ![M, N]⟩ ![0, 1]) (j : (⟨2, ![M, N]⟩ : Shape).Idx) :
    broadcastInDim ⟨2, ![M, N]⟩ ![0, 1] h x j = x (ix2 (j 0) 0) := by
  refine broadcastInDim_apply ![0, 1] h x j (ix2 (j 0) 0) fun a => ?_
  match a with
  | ⟨0, _⟩ =>
    show (j 0).val = if M = 1 then 0 else (j 0).val
    split_ifs with hM
    · have := (j 0).isLt; simp only [Matrix.cons_val_zero] at this; omega
    · rfl
  | ⟨1, _⟩ => rfl

/-- A vector laid out as a column by a broadcast along a new trailing axis. -/
theorem broadcastInDim_vec_col (b : (⟨1, ![M]⟩ : Shape).Idx → α)
    (h : (⟨1, ![M]⟩ : Shape).BroadcastsInDim ⟨2, ![M, 1]⟩ ![0]) (j : (⟨2, ![M, 1]⟩ : Shape).Idx) :
    broadcastInDim ⟨2, ![M, 1]⟩ ![0] h b j = b (ix1 (j 0)) := by
  refine broadcastInDim_apply ![0] h b j (ix1 (j 0)) fun a => ?_
  match a with
  | ⟨0, _⟩ =>
    show (j 0).val = if M = 1 then 0 else (j 0).val
    split_ifs with hM
    · have := (j 0).isLt; simp only [Matrix.cons_val_zero] at this; omega
    · rfl

/-- A vector laid out as a column by a reshape. -/
theorem shapeCast_vec_col (b : (⟨1, ![M]⟩ : Shape).Idx → α) (h : (⟨1, ![M]⟩ : Shape).ShapeCasts ⟨2, ![M, 1]⟩)
    (j : (⟨2, ![M, 1]⟩ : Shape).Idx) : shapeCast ⟨2, ![M, 1]⟩ b h j = b (ix1 (j 0)) := by
  refine shapeCast_apply b h j (ix1 (j 0)) ?_
  rw [Shape.rowMajor_val_two, Shape.rowMajor_val_one]
  have h1 : (j 1).val = 0 := by
    have := (j 1).isLt; simp only [Matrix.cons_val_one, Matrix.cons_val_zero] at this; omega
  show (j 0).val = (j 0).val * 1 + (j 1).val
  omega

/-- The two layouts of a vector as a column are one array. -/
theorem shapeCast_eq_broadcastInDim_col (b : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ b h = broadcastInDim ⟨2, ![M, 1]⟩ ![0] h' b :=
  funext fun j => (shapeCast_vec_col b h j).trans (broadcastInDim_vec_col b h' j).symm

/-- A column re-laid as a row by a reshape reads the column's entry at the row's lane. -/
theorem shapeCast_col_row (b : (⟨2, ![K, 1]⟩ : Shape).Idx → α) (h : (⟨2, ![K, 1]⟩ : Shape).ShapeCasts ⟨2, ![1, K]⟩)
    (j : (⟨2, ![1, K]⟩ : Shape).Idx) : shapeCast ⟨2, ![1, K]⟩ b h j = b (ix2 (j 1) 0) := by
  refine shapeCast_apply b h j (ix2 (j 1) 0) ?_
  rw [Shape.rowMajor_val_two, Shape.rowMajor_val_two]
  have h0 : (j 0).val = 0 := by
    have := (j 0).isLt; simp only [Matrix.cons_val_zero] at this; omega
  show (j 1).val * 1 + 0 = (j 0).val * K + (j 1).val
  rw [h0]; omega

end ColLayout

end
-- ==== Proof.KRegion0.lean ====
/-
  The first kernel launch, read as one function of whole arrays (floats are extended reals).

  The launch walks 20 blocks of 5000 node rows. At a block it holds the block's rows of the features `X`, the same
  rows of the degree column `D` (one entry per node), and all of the weights `W`, and writes
  `D[r] · ∑ₖ X[r,k] · W[k,c]` for each row `r` of the block. Every entry reads only its own row, so the 20 blocks,
  which tile the 100000 rows, leave the array `T[r,c] = D[r] · ∑ₖ X[r,k] · W[k,c]`.
-/
import proofs.«113241_j59012850647682_2_alg».proof.Proof.Gen.KernelIdeal.Frame
import proofs.«113241_j59012850647682_2_alg».proof.Proof.KFns
import proofs.«113241_j59012850647682_2_alg».proof.Proof.LibPlainDot
import proofs.«113241_j59012850647682_2_alg».proof.Proof.LibCols
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat)

/-- One entry of the body's result over a block is the entry of `scaledProd` over the arrays, when the block entries it
    reads are the array entries of the matching row and column. -/
theorem point0 (x0 : Vec Ideal S5000x128 .f32) (x1 : Vec Ideal S5000x1 .f32) (x2 : Vec Ideal S128x128 .f32)
    (X : S100000x128.Idx → EReal) (D : S100000x1.Idx → EReal) (W : S128x128.Idx → EReal)
    (y : S5000x128.Idx) (i : S100000x128.Idx)
    (hx : ∀ k : Fin 128, x0 (ix2 (y 0) k) = X (ix2 (i 0) k))
    (hd : x1 (ix2 (y 0) 0) = D (ix2 (i 0) 0))
    (hw : ∀ k : Fin 128, x2 (ix2 k (y 1)) = W (ix2 k (i 1))) :
    k0_pay1 (F := Ideal) x0 x2 x1 y = scaledProd X D W i := by
  show mulf (broadcastTo S5000x128 (shapeCast S5000x1 x1 shapeCasts_S5000x1_S5000x1) broadcasts_S5000x1_S5000x128)
      (matmul (DotDims.plain 5000 128 128) none (truncf .bf16 x0 bitsLt_bf16_f32)
        (truncf .bf16 (shapeCast S128x128 x2 shapeCasts_S128x128_S128x128) bitsLt_bf16_f32)
        (constant (F := Ideal) S5000x128 .f32 0x00000000#32)) y = _
  rw [mulf_apply, ColLayout.broadcastTo_col, shapeCast_self, shapeCast_self, PlainDot.matmul_zero_apply]
  unfold scaledProd
  rw [hd]
  refine congrArg _ (Finset.sum_congr rfl fun k _ => ?_)
  rw [truncf_apply, truncf_apply, hx k, hw k]

variable (V : (c : Dev nD) → (b : Ref sig .tc) → Buf (Elt Ideal) ((c : Thread nD τ).loc b))

/-- Where each window's block sits at grid point `t`: the row blocks at `t`, the weights whole. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of `scaledProd` of the arrays the launch finds. -/
theorem flushed0_eq (c : Dev nD) (t : Fin cfg0.N) :
    (dat0 V c).flushed 3 t
      = ((cfg0.win 3).blk t).view.read (Elt Ideal) (scaledProd (V c main_arg0) (V c main_v18) (V c main_v20)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts0 t
  funext y
  refine point0 _ _ _ _ _ _ y (((cfg0.win 3).blk t).view.emb y) (fun k => ?_) ?_ (fun k => ?_)
  · show V c main_arg0 (((cfg0.win 0).blk t).view.emb (ix2 (y 0) k)) = V c main_arg0 _
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  · show V c main_v18 (((cfg0.win 1).blk t).view.emb (ix2 (y 0) 0)) = V c main_v18 _
    refine congrArg _ (funext fun a => Fin.ext ?_)
    match a with
    | ⟨0, _⟩ => show win0_1.index t (0 : Fin 2) * 5000 + 1 * (y 0).val = win0_3.index t (0 : Fin 2) * 5000 + 1 * (y 0).val; omega
    | ⟨1, _⟩ => show win0_1.index t (1 : Fin 2) * 1 + 1 * 0 = 0; omega
  · show V c main_v20 (((cfg0.win 2).blk t).view.emb (ix2 k (y 1))) = V c main_v20 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_3.index t (1 : Fin 2) * 128 + 1 * (y 1).val; omega

/-- An index of the output array is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v21).slice (win0_3.rect t)).set ↔ _
  rw [View.set_slice_whole, Rect.mem_set_unit]
  exact Iff.rfl

/-- The 20 row blocks tile the output array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e0, e1, e2, e3, e4, e5, e6, e7⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY the first launch leaves. -/
theorem final0 (c : Dev nD) :
    (dat0 V c).arrAt 3 cfg0.N = scaledProd (V c main_arg0) (V c main_v18) (V c main_v20) :=
  (dat0 V c).arrAt_eq_of_cover 3 _ (fun t _ => flushed0_eq V c t) cover0

end Cert.KernelIdeal.RegVal

end
-- ==== Proof.KRegion1.lean ====
/-
  Kernel launch 1 (a fused layer), read as one function of whole arrays (floats are extended reals).

  The launch walks 20 blocks of 5000 node rows. At a block it holds the block's rows of the aggregate `G`, the same rows
  of the degree column `D`, the whole bias row `B` and the whole weights `W`, and writes
  `D[r] · ∑ₖ max (D[r] · G[r,k] + B[k]) 0 · W[k,c]` for each row `r` of the block. Every entry reads only its own row,
  so the 20 blocks, which tile the 100000 rows, leave `fusedLayer G D B W`.
-/
import proofs.«113241_j59012850647682_2_alg».proof.Proof.Gen.KernelIdeal.Frame
import proofs.«113241_j59012850647682_2_alg».proof.Proof.KFns
import proofs.«113241_j59012850647682_2_alg».proof.Proof.LibPlainDot
import proofs.«113241_j59012850647682_2_alg».proof.Proof.LibCols
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat)

/-- One entry of the body's result over a block is the entry of `fusedLayer` over the arrays, when the block entries
    it reads are the array entries of the matching row and column. -/
theorem point1 (x0 : Vec Ideal S5000x128 .f32) (x1 : Vec Ideal S5000x1 .f32) (x2 : Vec Ideal S1x128 .f32)
    (x3 : Vec Ideal S128x128 .f32)
    (G : S100000x128.Idx → EReal) (D : S100000x1.Idx → EReal) (B : S1x128.Idx → EReal) (W : S128x128.Idx → EReal)
    (y : S5000x128.Idx) (i : S100000x128.Idx)
    (hg : ∀ k : Fin 128, x0 (ix2 (y 0) k) = G (ix2 (i 0) k))
    (hd : x1 (ix2 (y 0) 0) = D (ix2 (i 0) 0))
    (hb : ∀ k : Fin 128, x2 (ix2 0 k) = B (ix2 0 k))
    (hw : ∀ k : Fin 128, x3 (ix2 k (y 1)) = W (ix2 k (i 1))) :
    k1_pay1 (F := Ideal) x1 x0 x2 x3 x1 y = fusedLayer G D B W i := by
  show mulf (broadcastTo S5000x128 (shapeCast S5000x1 x1 shapeCasts_S5000x1_S5000x1) broadcasts_S5000x1_S5000x128)
      (matmul (DotDims.plain 5000 128 128) none
        (truncf .bf16 (maximumf (addf (mulf (broadcastTo S5000x128 (shapeCast S5000x1 x1 shapeCasts_S5000x1_S5000x1) broadcasts_S5000x1_S5000x128)
              (shapeCast S5000x128 x0 shapeCasts_S5000x128_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 (shapeCast S128x128 x3 shapeCasts_S128x128_S128x128) bitsLt_bf16_f32)
        (constant (F := Ideal) S5000x128 .f32 0x00000000#32)) y = _
  simp only [shapeCast_self]
  rw [mulf_apply, ColLayout.broadcastTo_col, PlainDot.matmul_zero_apply]
  unfold fusedLayer
  rw [hd]
  refine congrArg _ (Finset.sum_congr rfl fun k _ => ?_)
  rw [truncf_apply, truncf_apply, hw k, maximumf_apply, addf_apply, mulf_apply, ColLayout.broadcastTo_col,
    PlainDot.broadcastTo_row, broadcast_apply, hg k, hb k]
  have e : x1 (ix2 ((ix2 (y 0) k : S5000x128.Idx) 0) 0) = D (ix2 (i 0) 0) := hd
  rw [e]
  rfl

variable (V : (c : Dev nD) → (b : Ref sig .tc) → Buf (Elt Ideal) ((c : Thread nD τ).loc b))

/-- Where each window's block sits at grid point `t`: the row blocks at `t`, the bias and the weights whole. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of `fusedLayer` of the arrays the launch finds. -/
theorem flushed1_eq (c : Dev nD) (t : Fin cfg1.N) :
    (dat1 V c).flushed 4 t
      = ((cfg1.win 4).blk t).view.read (Elt Ideal)
          (fusedLayer (V c main_v33) (V c main_v18) (V c main_v34) (V c main_v35)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨e0, e1, e2, e3, e4, e5, e6, e7, e8, e9⟩ := idx_facts1 t
  funext y
  refine point1 _ _ _ _ _ _ _ _ y (((cfg1.win 4).blk t).view.emb y) (fun k => ?_) ?_ (fun k => ?_) (fun k => ?_)
  · show V c main_v33 (((cfg1.win 0).blk t).view.emb (ix2 (y 0) k)) = V c main_v33 _
    refine congrArg _ (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * k.val = k.val; omega
  · show V c main_v18 (((cfg1.win 1).blk t).view.emb (ix2 (y 0) 0)) = V c main_v18 _
    refine congrArg _ (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 1 + 1 * 0 = 0; omega
  · show V c main_v34 (((cfg1.win 2).blk t).view.emb (ix2 0 k)) = V c main_v34 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_v35 (((cfg1.win 3).blk t).view.emb (ix2 k (y 1))) = V c main_v35 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (y 1).val = win1_4.index t (1 : Fin 2) * 128 + 1 * (y 1).val; omega

/-- An index of the output array is in point `t`'s block iff each coordinate is in the block's range. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v36).slice (win1_4.rect t)).set ↔ _
  rw [View.set_slice_whole, Rect.mem_set_unit]
  exact Iff.rfl

/-- The 20 row blocks tile the output array. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨e0, e1, e2, e3, e4, e5, e6, e7, e8, e9⟩ := idx_facts1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY launch 1 leaves. -/
theorem final1 (c : Dev nD) :
    (dat1 V c).arrAt 4 cfg1.N = fusedLayer (V c main_v33) (V c main_v18) (V c main_v34) (V c main_v35) :=
  (dat1 V c).arrAt_eq_of_cover 4 _ (fun t _ => flushed1_eq V c t) cover1

end Cert.KernelIdeal.RegVal

end
-- ==== Proof.KRegion2.lean ====
/-
  Kernel launch 2 (a fused layer), read as one function of whole arrays (floats are extended reals).

  The launch walks 20 blocks of 5000 node rows. At a block it holds the block's rows of the aggregate `G`, the same rows
  of the degree column `D`, the whole bias row `B` and the whole weights `W`, and writes
  `D[r] · ∑ₖ max (D[r] · G[r,k] + B[k]) 0 · W[k,c]` for each row `r` of the block. Every entry reads only its own row,
  so the 20 blocks, which tile the 100000 rows, leave `fusedLayer G D B W`.
-/
import proofs.«113241_j59012850647682_2_alg».proof.Proof.Gen.KernelIdeal.Frame
import proofs.«113241_j59012850647682_2_alg».proof.Proof.KFns
import proofs.«113241_j59012850647682_2_alg».proof.Proof.LibPlainDot
import proofs.«113241_j59012850647682_2_alg».proof.Proof.LibCols
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat)

/-- One entry of the body's result over a block is the entry of `fusedLayer` over the arrays, when the block entries
    it reads are the array entries of the matching row and column. -/
theorem point2 (x0 : Vec Ideal S5000x128 .f32) (x1 : Vec Ideal S5000x1 .f32) (x2 : Vec Ideal S1x128 .f32)
    (x3 : Vec Ideal S128x128 .f32)
    (G : S100000x128.Idx → EReal) (D : S100000x1.Idx → EReal) (B : S1x128.Idx → EReal) (W : S128x128.Idx → EReal)
    (y : S5000x128.Idx) (i : S100000x128.Idx)
    (hg : ∀ k : Fin 128, x0 (ix2 (y 0) k) = G (ix2 (i 0) k))
    (hd : x1 (ix2 (y 0) 0) = D (ix2 (i 0) 0))
    (hb : ∀ k : Fin 128, x2 (ix2 0 k) = B (ix2 0 k))
    (hw : ∀ k : Fin 128, x3 (ix2 k (y 1)) = W (ix2 k (i 1))) :
    k2_pay1 (F := Ideal) x1 x0 x2 x3 x1 y = fusedLayer G D B W i := by
  show mulf (broadcastTo S5000x128 (shapeCast S5000x1 x1 shapeCasts_S5000x1_S5000x1) broadcasts_S5000x1_S5000x128)
      (matmul (DotDims.plain 5000 128 128) none
        (truncf .bf16 (maximumf (addf (mulf (broadcastTo S5000x128 (shapeCast S5000x1 x1 shapeCasts_S5000x1_S5000x1) broadcasts_S5000x1_S5000x128)
              (shapeCast S5000x128 x0 shapeCasts_S5000x128_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 (shapeCast S128x128 x3 shapeCasts_S128x128_S128x128) bitsLt_bf16_f32)
        (constant (F := Ideal) S5000x128 .f32 0x00000000#32)) y = _
  simp only [shapeCast_self]
  rw [mulf_apply, ColLayout.broadcastTo_col, PlainDot.matmul_zero_apply]
  unfold fusedLayer
  rw [hd]
  refine congrArg _ (Finset.sum_congr rfl fun k _ => ?_)
  rw [truncf_apply, truncf_apply, hw k, maximumf_apply, addf_apply, mulf_apply, ColLayout.broadcastTo_col,
    PlainDot.broadcastTo_row, broadcast_apply, hg k, hb k]
  have e : x1 (ix2 ((ix2 (y 0) k : S5000x128.Idx) 0) 0) = D (ix2 (i 0) 0) := hd
  rw [e]
  rfl

variable (V : (c : Dev nD) → (b : Ref sig .tc) → Buf (Elt Ideal) ((c : Thread nD τ).loc b))

/-- Where each window's block sits at grid point `t`: the row blocks at `t`, the bias and the weights whole. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point `t` writes back is block `t` of `fusedLayer` of the arrays the launch finds. -/
theorem flushed2_eq (c : Dev nD) (t : Fin cfg2.N) :
    (dat2 V c).flushed 4 t
      = ((cfg2.win 4).blk t).view.read (Elt Ideal)
          (fusedLayer (V c main_v48) (V c main_v18) (V c main_v49) (V c main_v50)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S5000x1) hz,
    View.ld_unit_zero (S := S1x128) hz]
  obtain ⟨e0, e1, e2, e3, e4, e5, e6, e7, e8, e9⟩ := idx_facts2 t
  funext y
  refine point2 _ _ _ _ _ _ _ _ y (((cfg2.win 4).blk t).view.emb y) (fun k => ?_) ?_ (fun k => ?_) (fun k => ?_)
  · show V c main_v48 (((cfg2.win 0).blk t).view.emb (ix2 (y 0) k)) = V c main_v48 _
    refine congrArg _ (funext fun a => Fin.ext ?_)
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 128 + 1 * k.val = k.val; omega
  · show V c main_v18 (((cfg2.win 1).blk t).view.emb (ix2 (y 0) 0)) = V c main_v18 _
    refine congrArg _ (funext fun a => Fin.ext ?_)
    match a with
    | ⟨0, _⟩ => show win2_1.index t (0 : Fin 2) * 5000 + 1 * (y 0).val = win2_4.index t (0 : Fin 2) * 5000 + 1 * (y 0).val; omega
    | ⟨1, _⟩ => show win2_1.index t (1 : Fin 2) * 1 + 1 * 0 = 0; omega
  · show V c main_v49 (((cfg2.win 2).blk t).view.emb (ix2 0 k)) = V c main_v49 _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · show V c main_v50 (((cfg2.win 3).blk t).view.emb (ix2 k (y 1))) = V c main_v50 _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * (y 1).val = win2_4.index t (1 : Fin 2) * 128 + 1 * (y 1).val; omega

/-- An index of the output array is in point `t`'s block iff each coordinate is in the block's range. -/
theorem mem_blk2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v51).slice (win2_4.rect t)).set ↔ _
  rw [View.set_slice_whole, Rect.mem_set_unit]
  exact Iff.rfl

/-- The 20 row blocks tile the output array. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 5000, by show (i 0).val / 5000 < 20; omega⟩
  obtain ⟨e0, e1, e2, e3, e4, e5, e6, e7, e8, e9⟩ := idx_facts2 t
  have ht : t.val = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE ARRAY launch 2 leaves. -/
theorem final2 (c : Dev nD) :
    (dat2 V c).arrAt 4 cfg2.N = fusedLayer (V c main_v48) (V c main_v18) (V c main_v49) (V c main_v50) :=
  (dat2 V c).arrAt_eq_of_cover 4 _ (fun t _ => flushed2_eq V c t) cover2

end Cert.KernelIdeal.RegVal

end
-- ==== Proof.KRegion3.lean ====
/-
  Kernel launch 3 (a fused layer), read as one function of whole arrays (floats are extended reals).

  The launch walks 20 blocks of 5000 node rows. At a block it holds the block's rows of the aggregate `G`, the same rows
  of the degree column `D`, the whole bias row `B` and the whole weights `W`, and writes
  `D[r] · ∑ₖ max (D[r] · G[r,k] + B[k]) 0 · W[k,c]` for each row `r` of the block. Every entry reads only its own row,
  so the 20 blocks, which tile the 100000 rows, leave `fusedLayer G D B W`.
-/
import proofs.«113241_j59012850647682_2_alg».proof.Proof.Gen.KernelIdeal.Frame
import proofs.«113241_j59012850647682_2_alg».proof.Proof.KFns
import proofs.«113241_j59012850647682_2_alg».proof.Proof.LibPlainDot
import proofs.«113241_j59012850647682_2_alg».proof.Proof.LibCols
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat)

/-- One entry of the body's result over a block is the entry of `fusedLayer` over the arrays, when the block entries
    it reads are the array entries of the matching row and column. -/
theorem point3 (x0 : Vec Ideal S5000x128 .f32) (x1 : Vec Ideal S5000x1 .f32) (x2 : Vec Ideal S1x128 .f32)
    (x3 : Vec Ideal S128x128 .f32)
    (G : S100000x128.Idx → EReal) (D : S100000x1.Idx → EReal) (B : S1x128.Idx → EReal) (W : S128x128.Idx → EReal)
    (y : S5000x128.Idx) (i : S100000x128.Idx)
    (hg : ∀ k : Fin 128, x0 (ix2 (y 0) k) = G (ix2 (i 0) k))
    (hd : x1 (ix2 (y 0) 0) = D (ix2 (i 0) 0))
    (hb : ∀ k : Fin 128, x2 (ix2 0 k) = B (ix2 0 k))
    (hw : ∀ k : Fin 128, x3 (ix2 k (y 1)) = W (ix2 k (i 1))) :
    k3_pay1 (F := Ideal) x1 x0 x2 x3 x1 y = fusedLayer G D B W i := by
  show mulf (broadcastTo S5000x128 (shapeCast S5000x1 x1 shapeCasts_S5000x1_S5000x1) broadcasts_S5000x1_S5000x128)
      (matmul (DotDims.plain 5000 128 128) none
        (truncf .bf16 (maximumf (addf (mulf (broadcastTo S5000x128 (shapeCast S5000x1 x1 shapeCasts_S5000x1_S5000x1) broadcasts_S5000x1_S5000x128)
              (shapeCast S5000x128 x0 shapeCasts_S5000x128_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 (shapeCast S128x128 x3 shapeCasts_S128x128_S128x128) bitsLt_bf16_f32)
        (constant (F := Ideal) S5000x128 .f32 0x00000000#32)) y = _
  simp only [shapeCast_self]
  rw [mulf_apply, ColLayout.broadcastTo_col, PlainDot.matmul_zero_apply]
  unfold fusedLayer
  rw [hd]
  refine congrArg _ (Finset.sum_congr rfl fun k _ => ?_)
  rw [truncf_apply, truncf_apply, hw k, maximumf_apply, addf_apply, mulf_apply, ColLayout.broadcastTo_col,
    PlainDot.broadcastTo_row, broadcast_apply, hg k, hb k]
  have e : x1 (ix2 ((ix2 (y 0) k : S5000x128.Idx) 0) 0) = D (ix2 (i 0) 0) := hd
  rw [e]
  rfl

variable (V : (c : Dev nD) → (b : Ref sig .tc) → Buf (Elt Ideal) ((c : Thread nD τ).loc b))

/-- Where each window's block sits at grid point `t`: the row blocks at `t`, the bias and the weights whole. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What grid point `t` writes back is block `t` of `fusedLayer` of the arrays the launch finds. -/
theorem flushed3_eq (c : Dev nD) (t : Fin cfg3.N) :
    (dat3 V c).flushed 4 t
      = ((cfg3.win 4).blk t).view.read (Elt Ideal)
          (fusedLayer (V c main_v63) (V c main_v18) (V c main_v64) (V c main_v65)) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz, View.ld_unit_zero (S := S5000x1) hz,
    View.ld_unit_zero (S := S1x128) hz]
  obtain ⟨e0, e1, e2, e3, e4, e5, e6, e7, e8, e9⟩ := idx_facts3 t
  funext y
  refine point3 _ _ _ _ _ _ _ _ y (((cfg3.win 4).blk t).view.emb y) (fun k => ?_) ?_ (fun k => ?_) (fun k => ?_)
  · show V c main_v63 (((cfg3.win 0).blk t).view.emb (ix2 (y 0) k)) = V c main_v63 _
    refine congrArg _ (funext fun a => Fin.ext ?_)
    match a with
    | ⟨0, _⟩ => show win3_0.index t (0 : Fin 2) * 5000 + 1 * (y 0).val = win3_4.index t (0 : Fin 2) * 5000 + 1 * (y 0).val; omega
    | ⟨1, _⟩ => show win3_0.index t (1 : Fin 2) * 128 + 1 * k.val = k.val; omega
  · show V c main_v18 (((cfg3.win 1).blk t).view.emb (ix2 (y 0) 0)) = V c main_v18 _
    refine congrArg _ (funext fun a => Fin.ext ?_)
    match a with
    | ⟨0, _⟩ => show win3_1.index t (0 : Fin 2) * 5000 + 1 * (y 0).val = win3_4.index t (0 : Fin 2) * 5000 + 1 * (y 0).val; omega
    | ⟨1, _⟩ => show win3_1.index t (1 : Fin 2) * 1 + 1 * 0 = 0; omega
  · show V c main_v64 (((cfg3.win 2).blk t).view.emb (ix2 0 k)) = V c main_v64 _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * k.val = k.val; omega
  · show V c main_v65 (((cfg3.win 3).blk t).view.emb (ix2 k (y 1))) = V c main_v65 _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * (y 1).val = win3_4.index t (1 : Fin 2) * 128 + 1 * (y 1).val; omega

/-- An index of the output array is in point `t`'s block iff each coordinate is in the block's range. -/
theorem mem_blk3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v66).slice (win3_4.rect t)).set ↔ _
  rw [View.set_slice_whole, Rect.mem_set_unit]
  exact Iff.rfl

/-- The 20 row blocks tile the output array. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨e0, e1, e2, e3, e4, e5, e6, e7, e8, e9⟩ := idx_facts3 t
  have ht : t.val = (i 0).val / 5000 := rfl
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE ARRAY launch 3 leaves. -/
theorem final3 (c : Dev nD) :
    (dat3 V c).arrAt 4 cfg3.N = fusedLayer (V c main_v63) (V c main_v18) (V c main_v64) (V c main_v65) :=
  (dat3 V c).arrAt_eq_of_cover 4 _ (fun t _ => flushed3_eq V c t) cover3

end Cert.KernelIdeal.RegVal

end
-- ==== Proof.KRegion4.lean ====
/-
  Kernel launch 4 (a fused layer), read as one function of whole arrays (floats are extended reals).

  The launch walks 20 blocks of 5000 node rows. At a block it holds the block's rows of the aggregate `G`, the same rows
  of the degree column `D`, the whole bias row `B` and the whole weights `W`, and writes
  `D[r] · ∑ₖ max (D[r] · G[r,k] + B[k]) 0 · W[k,c]` for each row `r` of the block. Every entry reads only its own row,
  so the 20 blocks, which tile the 100000 rows, leave `fusedLayer G D B W`.
-/
import proofs.«113241_j59012850647682_2_alg».proof.Proof.Gen.KernelIdeal.Frame
import proofs.«113241_j59012850647682_2_alg».proof.Proof.KFns
import proofs.«113241_j59012850647682_2_alg».proof.Proof.LibPlainDot
import proofs.«113241_j59012850647682_2_alg».proof.Proof.LibCols
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat)

/-- One entry of the body's result over a block is the entry of `fusedLayer` over the arrays, when the block entries
    it reads are the array entries of the matching row and column. -/
theorem point4 (x0 : Vec Ideal S5000x128 .f32) (x1 : Vec Ideal S5000x1 .f32) (x2 : Vec Ideal S1x128 .f32)
    (x3 : Vec Ideal S128x128 .f32)
    (G : S100000x128.Idx → EReal) (D : S100000x1.Idx → EReal) (B : S1x128.Idx → EReal) (W : S128x128.Idx → EReal)
    (y : S5000x128.Idx) (i : S100000x128.Idx)
    (hg : ∀ k : Fin 128, x0 (ix2 (y 0) k) = G (ix2 (i 0) k))
    (hd : x1 (ix2 (y 0) 0) = D (ix2 (i 0) 0))
    (hb : ∀ k : Fin 128, x2 (ix2 0 k) = B (ix2 0 k))
    (hw : ∀ k : Fin 128, x3 (ix2 k (y 1)) = W (ix2 k (i 1))) :
    k4_pay1 (F := Ideal) x1 x0 x2 x3 x1 y = fusedLayer G D B W i := by
  show mulf (broadcastTo S5000x128 (shapeCast S5000x1 x1 shapeCasts_S5000x1_S5000x1) broadcasts_S5000x1_S5000x128)
      (matmul (DotDims.plain 5000 128 128) none
        (truncf .bf16 (maximumf (addf (mulf (broadcastTo S5000x128 (shapeCast S5000x1 x1 shapeCasts_S5000x1_S5000x1) broadcasts_S5000x1_S5000x128)
              (shapeCast S5000x128 x0 shapeCasts_S5000x128_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 (shapeCast S128x128 x3 shapeCasts_S128x128_S128x128) bitsLt_bf16_f32)
        (constant (F := Ideal) S5000x128 .f32 0x00000000#32)) y = _
  simp only [shapeCast_self]
  rw [mulf_apply, ColLayout.broadcastTo_col, PlainDot.matmul_zero_apply]
  unfold fusedLayer
  rw [hd]
  refine congrArg _ (Finset.sum_congr rfl fun k _ => ?_)
  rw [truncf_apply, truncf_apply, hw k, maximumf_apply, addf_apply, mulf_apply, ColLayout.broadcastTo_col,
    PlainDot.broadcastTo_row, broadcast_apply, hg k, hb k]
  have e : x1 (ix2 ((ix2 (y 0) k : S5000x128.Idx) 0) 0) = D (ix2 (i 0) 0) := hd
  rw [e]
  rfl

variable (V : (c : Dev nD) → (b : Ref sig .tc) → Buf (Elt Ideal) ((c : Thread nD τ).loc b))

/-- Where each window's block sits at grid point `t`: the row blocks at `t`, the bias and the weights whole. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What grid point `t` writes back is block `t` of `fusedLayer` of the arrays the launch finds. -/
theorem flushed4_eq (c : Dev nD) (t : Fin cfg4.N) :
    (dat4 V c).flushed 4 t
      = ((cfg4.win 4).blk t).view.read (Elt Ideal)
          (fusedLayer (V c main_v78) (V c main_v18) (V c main_v79) (V c main_v80)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S5000x1) hz,
    View.ld_unit_zero (S := S1x128) hz]
  obtain ⟨e0, e1, e2, e3, e4, e5, e6, e7, e8, e9⟩ := idx_facts4 t
  funext y
  refine point4 _ _ _ _ _ _ _ _ y (((cfg4.win 4).blk t).view.emb y) (fun k => ?_) ?_ (fun k => ?_) (fun k => ?_)
  · show V c main_v78 (((cfg4.win 0).blk t).view.emb (ix2 (y 0) k)) = V c main_v78 _
    refine congrArg _ (funext fun a => Fin.ext ?_)
    match a with
    | ⟨0, _⟩ => show win4_0.index t (0 : Fin 2) * 5000 + 1 * (y 0).val = win4_4.index t (0 : Fin 2) * 5000 + 1 * (y 0).val; omega
    | ⟨1, _⟩ => show win4_0.index t (1 : Fin 2) * 128 + 1 * k.val = k.val; omega
  · show V c main_v18 (((cfg4.win 1).blk t).view.emb (ix2 (y 0) 0)) = V c main_v18 _
    refine congrArg _ (funext fun a => Fin.ext ?_)
    match a with
    | ⟨0, _⟩ => show win4_1.index t (0 : Fin 2) * 5000 + 1 * (y 0).val = win4_4.index t (0 : Fin 2) * 5000 + 1 * (y 0).val; omega
    | ⟨1, _⟩ => show win4_1.index t (1 : Fin 2) * 1 + 1 * 0 = 0; omega
  · show V c main_v79 (((cfg4.win 2).blk t).view.emb (ix2 0 k)) = V c main_v79 _
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * k.val = k.val; omega
  · show V c main_v80 (((cfg4.win 3).blk t).view.emb (ix2 k (y 1))) = V c main_v80 _
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * (y 1).val = win4_4.index t (1 : Fin 2) * 128 + 1 * (y 1).val; omega

/-- An index of the output array is in point `t`'s block iff each coordinate is in the block's range. -/
theorem mem_blk4 (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v81).slice (win4_4.rect t)).set ↔ _
  rw [View.set_slice_whole, Rect.mem_set_unit]
  exact Iff.rfl

/-- The 20 row blocks tile the output array. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  let t : Fin cfg4.N := ⟨(i 0).val / 5000, by show (i 0).val / 5000 < 20; omega⟩
  obtain ⟨e0, e1, e2, e3, e4, e5, e6, e7, e8, e9⟩ := idx_facts4 t
  have ht : t.val = (i 0).val / 5000 := rfl
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- THE ARRAY launch 4 leaves. -/
theorem final4 (c : Dev nD) :
    (dat4 V c).arrAt 4 cfg4.N = fusedLayer (V c main_v78) (V c main_v18) (V c main_v79) (V c main_v80) :=
  (dat4 V c).arrAt_eq_of_cover 4 _ (fun t _ => flushed4_eq V c t) cover4

end Cert.KernelIdeal.RegVal

end
-- ==== Proof.KRegion5.lean ====
/-
  The last kernel launch, read as one function of whole arrays (floats are extended reals).

  The launch walks 20 blocks of 5000 node rows. At a block it holds the block's rows of the aggregate `G`, the same rows
  of the degree column `D` and the whole bias row `B`, and writes `D[r] · G[r,c] + B[c]`. Every entry reads only its own
  row, so the 20 blocks, which tile the 100000 rows, leave `scaleAdd G D B`.
-/
import proofs.«113241_j59012850647682_2_alg».proof.Proof.Gen.KernelIdeal.Frame
import proofs.«113241_j59012850647682_2_alg».proof.Proof.KFns
import proofs.«113241_j59012850647682_2_alg».proof.Proof.LibPlainDot
import proofs.«113241_j59012850647682_2_alg».proof.Proof.LibCols
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat)

/-- One entry of the body's result over a block is the entry of `scaleAdd` over the arrays, when the block entries it
    reads are the array entries of the matching row and column. -/
theorem point5 (x0 : Vec Ideal S5000x128 .f32) (x1 : Vec Ideal S5000x1 .f32) (x2 : Vec Ideal S1x128 .f32)
    (G : S100000x128.Idx → EReal) (D : S100000x1.Idx → EReal) (B : S1x128.Idx → EReal)
    (y : S5000x128.Idx) (i : S100000x128.Idx)
    (hg : x0 y = G i) (hd : x1 (ix2 (y 0) 0) = D (ix2 (i 0) 0)) (hb : x2 (ix2 0 (y 1)) = B (ix2 0 (i 1))) :
    k5_pay1 (F := Ideal) x1 x0 x2 y = scaleAdd G D B i := by
  show (addf (mulf (broadcastTo S5000x128 (shapeCast S5000x1 x1 shapeCasts_S5000x1_S5000x1) broadcasts_S5000x1_S5000x128 : FVec Ideal S5000x128 .f32)
        (shapeCast S5000x128 x0 shapeCasts_S5000x128_S5000x128))
      (broadcastTo S5000x128 (shapeCast S1x128 x2 shapeCasts_S1x128_S1x128) broadcasts_S1x128_S5000x128 : FVec Ideal S5000x128 .f32) : FVec Ideal S5000x128 .f32) y = _
  simp only [shapeCast_self]
  rw [addf_apply, mulf_apply, ColLayout.broadcastTo_col, PlainDot.broadcastTo_row, hg, hd, hb]
  rfl

variable (V : (c : Dev nD) → (b : Ref sig .tc) → Buf (Elt Ideal) ((c : Thread nD τ).loc b))

/-- Where each window's block sits at grid point `t`: the row blocks at `t`, the bias whole. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What grid point `t` writes back is block `t` of `scaleAdd` of the arrays the launch finds. -/
theorem flushed5_eq (c : Dev nD) (t : Fin cfg5.N) :
    (dat5 V c).flushed 3 t
      = ((cfg5.win 3).blk t).view.read (Elt Ideal) (scaleAdd (V c main_v93) (V c main_v18) (V c main_v94)) := by
  show (cfg5.win 3).cut (grid5.coords t) ((dat5 V c).after 3 t) = _
  rw [after5_3]
  unfold out5_3
  rw [View.canon_unit_zero hz]
  simp only [View.ld_unit_zero (S := S5000x128) hz, View.ld_unit_zero (S := S5000x1) hz, View.ld_unit_zero (S := S1x128) hz]
  obtain ⟨e0, e1, e2, e3, e4, e5, e6, e7⟩ := idx_facts5 t
  funext y
  refine point5 _ _ _ _ _ _ y (((cfg5.win 3).blk t).view.emb y) ?_ ?_ ?_
  · show V c main_v93 (((cfg5.win 0).blk t).view.emb y) = V c main_v93 _
    refine congrArg _ (funext fun a => Fin.ext ?_)
    match a with
    | ⟨0, _⟩ => show win5_0.index t (0 : Fin 2) * 5000 + 1 * (y 0).val = win5_3.index t (0 : Fin 2) * 5000 + 1 * (y 0).val; omega
    | ⟨1, _⟩ => show win5_0.index t (1 : Fin 2) * 128 + 1 * (y 1).val = win5_3.index t (1 : Fin 2) * 128 + 1 * (y 1).val; omega
  · show V c main_v18 (((cfg5.win 1).blk t).view.emb (ix2 (y 0) 0)) = V c main_v18 _
    refine congrArg _ (funext fun a => Fin.ext ?_)
    match a with
    | ⟨0, _⟩ => show win5_1.index t (0 : Fin 2) * 5000 + 1 * (y 0).val = win5_3.index t (0 : Fin 2) * 5000 + 1 * (y 0).val; omega
    | ⟨1, _⟩ => show win5_1.index t (1 : Fin 2) * 1 + 1 * 0 = 0; omega
  · show V c main_v94 (((cfg5.win 2).blk t).view.emb (ix2 0 (y 1))) = V c main_v94 _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (y 1).val = win5_3.index t (1 : Fin 2) * 128 + 1 * (y 1).val; omega

/-- An index of the output array is in point `t`'s block iff each coordinate is in the block's range. -/
theorem mem_blk5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v95).slice (win5_3.rect t)).set ↔ _
  rw [View.set_slice_whole, Rect.mem_set_unit]
  exact Iff.rfl

/-- The 20 row blocks tile the output array. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  let t : Fin cfg5.N := ⟨(i 0).val / 5000, by show (i 0).val / 5000 < 20; omega⟩
  obtain ⟨e0, e1, e2, e3, e4, e5, e6, e7⟩ := idx_facts5 t
  have ht : t.val = (i 0).val / 5000 := rfl
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE ARRAY the last launch leaves. -/
theorem final5 (c : Dev nD) :
    (dat5 V c).arrAt 3 cfg5.N = scaleAdd (V c main_v93) (V c main_v18) (V c main_v94) :=
  (dat5 V c).arrAt_eq_of_cover 3 _ (fun t _ => flushed5_eq V c t) cover5

end Cert.KernelIdeal.RegVal

end
-- ==== Proof.KValue.lean ====
/-
  The kernel program's result as one function of the argument arrays (floats are extended reals).

  With `col`, `rowAdj` the slot index vectors, `D` the degree column and `Wᵢᵀ`, `bᵢ` the transposed weights and the
  bias rows: `S₀ = agg (D ⊙ (x · W₀ᵀ))`, `Sᵢ = agg (D ⊙ (max (D ⊙ Sᵢ₋₁ + bᵢ₋₁) 0 · Wᵢᵀ))` for `i = 1 … 4`, and the result is
  `D ⊙ S₄ + b₄`; `agg` gathers the padded rows at `rowAdj` and adds them into the rows `col` names. Each launch's
  output is read off its 20 blocks, each host stretch off its operations, and the vectors computed before the first
  launch are carried unchanged to every later segment.
-/
import proofs.«113241_j59012850647682_2_alg».proof.Proof.KHost
import proofs.«113241_j59012850647682_2_alg».proof.Proof.KPre
import proofs.«113241_j59012850647682_2_alg».proof.Proof.KRegion0
import proofs.«113241_j59012850647682_2_alg».proof.Proof.KRegion1
import proofs.«113241_j59012850647682_2_alg».proof.Proof.KRegion2
import proofs.«113241_j59012850647682_2_alg».proof.Proof.KRegion3
import proofs.«113241_j59012850647682_2_alg».proof.Proof.KRegion4
import proofs.«113241_j59012850647682_2_alg».proof.Proof.KRegion5

set_option maxRecDepth 16384

noncomputable section

namespace Cert.KernelIdeal.RegVal

open Cert.KernelIdeal Cert.KernelIdeal.Gen Idealize.ShloMosaic Idealize.ShloMosaic.TcCoe Idealize.SL.Sem

/-- The kernel's result from the slot vectors, the degree column and the arguments. -/
def kOut (col rowAdj : IVec S740000 32) (D : S100000x1.Idx → EReal) (x : FVec Ideal S100000x128 .f32)
    (w0 : FVec Ideal S128x128 .f32) (b0 : FVec Ideal S128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) : S100000x128.Idx → EReal :=
  let tr := fun (w : FVec Ideal S128x128 .f32) => transpose S128x128 [1, 0] w transposes_S128x128_S128x128_1_0
  let rs := fun (b : FVec Ideal S128 .f32) => shapeCast S1x128 b shapeCasts_S128_S1x128
  let s0 := aggK col rowAdj (scaledProd x D (tr w0))
  let s1 := aggK col rowAdj (fusedLayer s0 D (rs b0) (tr w1))
  let s2 := aggK col rowAdj (fusedLayer s1 D (rs b1) (tr w2))
  let s3 := aggK col rowAdj (fusedLayer s2 D (rs b2) (tr w3))
  let s4 := aggK col rowAdj (fusedLayer s3 D (rs b3) (tr w4))
  scaleAdd s4 D (rs b4)

variable (m : (ℓ : Loc nD τ sig) → Buf (Elt Ideal) ℓ) (ρ : Dev nD → PrngReg)

/-- What launch 0 leaves in its output array, from the arrays it finds. -/
theorem launch0_out (c : Dev nD) :
    W6 m ρ c (Proc.devRef .tc main_v21) = scaledProd (W5 m ρ c (Proc.devRef .tc main_arg0)) (W5 m ρ c (Proc.devRef .tc main_v18)) (W5 m ρ c (Proc.devRef .tc main_v20)) :=
  (W6_arr m ρ c 3).trans (final0 (V5 m ρ) c)

/-- What launch 1 leaves in its output array, from the arrays it finds. -/
theorem launch1_out (c : Dev nD) :
    W8 m ρ c (Proc.devRef .tc main_v36) = fusedLayer (W7 m ρ c (Proc.devRef .tc main_v33)) (W7 m ρ c (Proc.devRef .tc main_v18)) (W7 m ρ c (Proc.devRef .tc main_v34)) (W7 m ρ c (Proc.devRef .tc main_v35)) :=
  (W8_arr m ρ c 4).trans (final1 (V7 m ρ) c)

/-- What launch 2 leaves in its output array, from the arrays it finds. -/
theorem launch2_out (c : Dev nD) :
    W10 m ρ c (Proc.devRef .tc main_v51) = fusedLayer (W9 m ρ c (Proc.devRef .tc main_v48)) (W9 m ρ c (Proc.devRef .tc main_v18)) (W9 m ρ c (Proc.devRef .tc main_v49)) (W9 m ρ c (Proc.devRef .tc main_v50)) :=
  (W10_arr m ρ c 4).trans (final2 (V9 m ρ) c)

/-- What launch 3 leaves in its output array, from the arrays it finds. -/
theorem launch3_out (c : Dev nD) :
    W12 m ρ c (Proc.devRef .tc main_v66) = fusedLayer (W11 m ρ c (Proc.devRef .tc main_v63)) (W11 m ρ c (Proc.devRef .tc main_v18)) (W11 m ρ c (Proc.devRef .tc main_v64)) (W11 m ρ c (Proc.devRef .tc main_v65)) :=
  (W12_arr m ρ c 4).trans (final3 (V11 m ρ) c)

/-- What launch 4 leaves in its output array, from the arrays it finds. -/
theorem launch4_out (c : Dev nD) :
    W14 m ρ c (Proc.devRef .tc main_v81) = fusedLayer (W13 m ρ c (Proc.devRef .tc main_v78)) (W13 m ρ c (Proc.devRef .tc main_v18)) (W13 m ρ c (Proc.devRef .tc main_v79)) (W13 m ρ c (Proc.devRef .tc main_v80)) :=
  (W14_arr m ρ c 4).trans (final4 (V13 m ρ) c)

/-- What launch 5 leaves in its output array, from the arrays it finds. -/
theorem launch5_out (c : Dev nD) :
    W16 m ρ c (Proc.devRef .tc main_v95) = scaleAdd (W15 m ρ c (Proc.devRef .tc main_v93)) (W15 m ρ c (Proc.devRef .tc main_v18)) (W15 m ρ c (Proc.devRef .tc main_v94)) :=
  (W16_arr m ρ c 3).trans (final5 (V15 m ρ) c)

theorem arg_at (c : Dev nD) (b : Ref sig .tc) (hb : b ∈ laterArgs) : W5 m ρ c (Proc.devRef .tc b) = m ((c : Thread nD τ).loc b) :=
  toLaunch5 m ρ c b hb

/-- THE KERNEL'S RESULT. -/
theorem kernel_value (c : Dev nD) :
    W16 m ρ c (Proc.devRef .tc main_v95)
      = kOut (withLoopsK (dstK (m ((c : Thread nD τ).loc main_arg1))))
          (rowAdjK (validAll (m ((c : Thread nD τ).loc main_arg1))) (withLoopsK (srcK (m ((c : Thread nD τ).loc main_arg1)))))
          (shapeCast S100000x1 (dinvK (degK (withLoopsK (dstK (m ((c : Thread nD τ).loc main_arg1)))) (ewK (m ((c : Thread nD τ).loc main_arg1))))) shapeCasts_S100000_S100000x1)
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [launch5_out, seg5, bias5, launch4_out, seg4, bias4, wt4, launch3_out, seg3, bias3, wt3, launch2_out, seg2, bias2, wt2,
    launch1_out, seg1, bias1, wt1, launch0_out]
  rw [d5_15, d5_13, d5_11, d5_9, d5_7,
    to5_14 m ρ c main_v7 (by decide), to5_14 m ρ c main_v19 (by decide), to5_14 m ρ c main_arg11 (by decide),
    to5_12 m ρ c main_v7 (by decide), to5_12 m ρ c main_v19 (by decide), to5_12 m ρ c main_arg9 (by decide), to5_12 m ρ c main_arg10 (by decide),
    to5_10 m ρ c main_v7 (by decide), to5_10 m ρ c main_v19 (by decide), to5_10 m ρ c main_arg7 (by decide), to5_10 m ρ c main_arg8 (by decide),
    to5_8 m ρ c main_v7 (by decide), to5_8 m ρ c main_v19 (by decide), to5_8 m ρ c main_arg5 (by decide), to5_8 m ρ c main_arg6 (by decide),
    to5_6 m ρ c main_v7 (by decide), to5_6 m ρ c main_v19 (by decide), to5_6 m ρ c main_arg3 (by decide), to5_6 m ρ c main_arg4 (by decide)]
  rw [arg_at m ρ c main_arg3 (by decide), arg_at m ρ c main_arg4 (by decide), arg_at m ρ c main_arg5 (by decide),
    arg_at m ρ c main_arg6 (by decide), arg_at m ρ c main_arg7 (by decide), arg_at m ρ c main_arg8 (by decide),
    arg_at m ρ c main_arg9 (by decide), arg_at m ρ c main_arg10 (by decide), arg_at m ρ c main_arg11 (by decide),
    col5, rowAdj5, dcol5, x5, wt5]
  rfl

end Cert.KernelIdeal.RegVal

end
-- ==== Proof.Slots.lean ====
/-
  The edge slots, one at a time.

  The 740000 slots are the 640000 edges of the edge list followed by one self loop per node. When every entry of the
  edge list is a node number (`InRange`), every slot's source index is a node number: an edge's source is an entry of
  the list, a self loop's source is its node. A slot's validity bit is 0 or 1 and its weight is that bit as a number;
  the reference's spelling of the weights (the edges' bits as numbers, then ones) is the same vector. An index that is
  not negative is left alone by the wrap-around of negative indices, whatever the length it wraps by.
-/
import proofs.«113241_j59012850647682_2_alg».proof.Proof.KDefs
import proofs.«113241_j59012850647682_2_alg».proof.Proof.LibCols
import proofs.«113241_j59012850647682_2_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import Idealize.ShloMosaic.PureOps.Ideal.Laws

set_option maxRecDepth 16384

noncomputable section

namespace Cert.KernelIdeal.RegVal

open Cert.KernelIdeal Cert.KernelIdeal.Gen Idealize.ShloMosaic Idealize.ShloMosaic.ValueIdx

/-- Every entry of the edge list is a node number. -/
def InRange (ei : IVec S2x640000 32) : Prop := ∀ q : S2x640000.Idx, 0 ≤ (ei q).toInt ∧ (ei q).toInt < 100000

section Cat
variable {α : Type}

/-- A slot among the edges reads the edges' vector. -/
theorem cat_edge (v : S640000.Idx → α) (u : S100000.Idx → α) (e : S740000.Idx) (h : (e 0).val < 640000) :
    concatenate S740000 0 [⟨S640000, v⟩, ⟨S100000, u⟩] concatenates_S640000_S100000_S740000_d0 e = v (ix1 ⟨(e 0).val, h⟩) :=
  concatenate_pair_apply_left 0 v u concatenates_S640000_S100000_S740000_d0 e rfl (ix1 ⟨(e 0).val, h⟩)
    (fun b => by obtain rfl : b = 0 := Subsingleton.elim _ _; rfl)

/-- A slot among the self loops reads the nodes' vector. -/
theorem cat_loop (v : S640000.Idx → α) (u : S100000.Idx → α) (e : S740000.Idx) (h : 640000 ≤ (e 0).val) :
    concatenate S740000 0 [⟨S640000, v⟩, ⟨S100000, u⟩] concatenates_S640000_S100000_S740000_d0 e
      = u (ix1 ⟨(e 0).val - 640000, by have hlt : (e 0).val < 740000 := (e 0).isLt; show (e 0).val - 640000 < 100000; omega⟩) :=
  concatenate_pair_apply_right 0 v u concatenates_S640000_S100000_S740000_d0 e rfl rfl _
    (fun b hb => absurd (Subsingleton.elim _ _) hb)
    (by show (e 0).val - 640000 + 640000 = (e 0).val; omega)

end Cat

/-- An entry of a row of the edge list is an entry of the edge list. -/
theorem srcK_mem (ei : IVec S2x640000 32) (i : S640000.Idx) : ∃ q, srcK ei i = ei q := by
  refine ⟨ix2 0 (i 0), ?_⟩
  unfold srcK
  rw [shapeCast_apply _ shapeCasts_S1x640000_S640000 i (ix2 0 (i 0)) (by
    rw [Shape.rowMajor_val_two, Shape.rowMajor_val_one]; show 0 * 640000 + (i 0).val = (i 0).val; omega)]
  exact extractStridedSlice_apply ![0, 0] ei slices_S2x640000_S1x640000_0_0 (ix2 0 (i 0)) (ix2 0 (i 0)) (fun a => by
    match a with
    | ⟨0, _⟩ => rfl
    | ⟨1, _⟩ => show (i 0).val = 0 + (i 0).val; omega)

theorem toInt_ofNat_small (n : Nat) (h : n < 100000) : (BitVec.ofNat 32 n).toInt = (n : Int) := by
  have e : (BitVec.ofNat 32 n).toNat = n := by rw [BitVec.toNat_ofNat]; exact Nat.mod_eq_of_lt (by omega)
  rw [BitVec.toInt_eq_toNat_cond, e]
  split <;> omega

/-- WITH THE EDGE LIST IN RANGE every slot's source index is a node number. -/
theorem row_inRange (ei : IVec S2x640000 32) (hin : InRange ei) (e : S740000.Idx) :
    0 ≤ (withLoopsK (srcK ei) e).toInt ∧ (withLoopsK (srcK ei) e).toInt < 100000 := by
  unfold withLoopsK
  by_cases h : (e 0).val < 640000
  · rw [cat_edge _ _ e h]
    obtain ⟨q, hq⟩ := srcK_mem ei (ix1 ⟨(e 0).val, h⟩)
    rw [hq]; exact hin q
  · have h' : 640000 ≤ (e 0).val := Nat.le_of_not_lt h
    have hlt : (e 0).val - 640000 < 100000 := by have h7 : (e 0).val < 740000 := (e 0).isLt; omega
    rw [cat_loop _ _ e h', iotaInDim_apply]
    show 0 ≤ (BitVec.ofNat 32 ((e 0).val - 640000)).toInt ∧ (BitVec.ofNat 32 ((e 0).val - 640000)).toInt < 100000
    rw [toInt_ofNat_small _ hlt]
    omega

/-- A slot's weight is its validity bit as a number. -/
theorem ewK_one (ei : IVec S2x640000 32) (e : S740000.Idx) (h : validAll ei e = 1#1) : ewK ei e = 1 := by
  show ((((validAll ei e).toNat : ℝ)) : EReal) = 1
  rw [h]; simp
theorem ewK_zero (ei : IVec S2x640000 32) (e : S740000.Idx) (h : validAll ei e = 0#1) : ewK ei e = 0 := by
  show ((((validAll ei e).toNat : ℝ)) : EReal) = 0
  rw [h]; simp

/-- The reference's spelling of the slot weights. -/
def ewAlt (ei : IVec S2x640000 32) : FVec Ideal S740000 .f32 :=
  concatenate S740000 0 [⟨S640000, uitofp .f32 (cmpi .ne (srcK ei) (dstK ei))⟩,
    ⟨S100000, broadcastInDim S100000 ![] bcast_S_S100000 (constant (F := Ideal) S_ .f32 0x3F800000#32)⟩]
    concatenates_S640000_S100000_S740000_d0

theorem ewAlt_eq (ei : IVec S2x640000 32) : ewAlt ei = ewK ei := by
  funext e
  unfold ewAlt
  by_cases h : (e 0).val < 640000
  · rw [cat_edge _ _ e h]
    show FloatOps.uitofp (F := Ideal) .f32 (cmpi .ne (srcK ei) (dstK ei) (ix1 ⟨(e 0).val, h⟩)) = FloatOps.uitofp (F := Ideal) .f32 (validAll ei e)
    unfold validAll
    rw [cat_edge _ _ e h]
  · have h' : 640000 ≤ (e 0).val := Nat.le_of_not_lt h
    rw [cat_loop _ _ e h', PlainDot.broadcastInDim_scalar, constant_apply, Ideal.ofBits_one_f32]
    show (1 : EReal) = FloatOps.uitofp (F := Ideal) .f32 (validAll ei e)
    unfold validAll
    rw [cat_loop _ _ e h', PlainDot.broadcastInDim_scalar, constantI_apply]
    show (1 : EReal) = ((((1#1 : BitVec 1).toNat : ℝ)) : EReal)
    simp

/-- The wrap-around of negative indices by `n` leaves an index that is not negative alone. -/
theorem wrap_nonneg (v : IVec S740000 32) (n : BitVec 32) (e : S740000.Idx) (h : 0 ≤ (v e).toInt) :
    select (cmpi .slt v (broadcastInDim S740000 ![] bcast_S_S740000 (constantI S_ 32 0#32)))
      (addi v (broadcastInDim S740000 ![] bcast_S_S740000 (constantI S_ 32 n))) v e = v e := by
  rw [select_apply]
  have hc : cmpi .slt v (broadcastInDim S740000 ![] bcast_S_S740000 (constantI S_ 32 0#32)) e = 0#1 := by
    refine eq_zero_of_ne_one fun h1 => ?_
    have h2 : IntOp.cmpi .slt (v e) (broadcastInDim S740000 ![] bcast_S_S740000 (constantI S_ 32 0#32) e) = 1#1 := h1
    rw [PlainDot.broadcastInDim_scalar, constantI_apply, IntOp.cmpi_slt] at h2
    have : (0#32 : BitVec 32).toInt = 0 := by decide
    omega
  rw [hc, select_zero]

end Cert.KernelIdeal.RegVal

end
-- ==== Proof.LibGcnAlg.lean ====
/-
  General lemmas on the extended reals for a graph convolution's aggregate.

  * `GcnAlg.mul_sum`: a factor that is a nonnegative real distributes over a finite sum of extended reals (with
    infinite terms of both signs the factor must be nonnegative and finite for this to hold).
  * `GcnAlg.scaled_scatterAdd`: a scatter-add into zeros, scaled by such a factor at an entry, is the scatter-add of
    updates that agree with the scaled updates wherever an update lands on that entry (the two scatters may spell
    their equal dimension numbers, indices and zero operands differently).
  * `GcnAlg.dinv_entry`: `1/√d` where `d > 0` and `0` elsewhere is a nonnegative real for every extended real `d`.
  * `GcnAlg.edge_term`: one slot's term. With slot weight 1 the gathered row is the source's scaled product row; with
    weight 0 it is the zero row. Either way, scaled by the target's factor, it is the product row times the slot's
    coefficient `(dr · ew) · di` (only commutativity, associativity and the laws of 0 and 1 are used).
-/
import Idealize.ShloMosaic.PureOps.Ideal.Laws
import Idealize.ShloMosaic.Lib.ValueIdx

noncomputable section

open Idealize.ShloMosaic Idealize.ShloMosaic.ValueIdx

namespace GcnAlg

theorem mul_sum {ι : Type} (s : Finset ι) (a : EReal) (ha : 0 ≤ a) (ha' : a ≠ ⊤) (f : ι → EReal) :
    a * ∑ j ∈ s, f j = ∑ j ∈ s, a * f j := by
  classical
  induction s using Finset.induction_on with
  | empty => simp
  | insert x s hx ih =>
    rw [Finset.sum_insert hx, Finset.sum_insert hx, EReal.left_distrib_of_nonneg_of_ne_top ha ha', ih]

theorem scaled_scatterAdd {s si u : Shape} (d d' : ScatterDims s si u) (hd : d = d') {w : Nat} (idx idx' : IVec si w)
    (hidx : idx = idx') (x x' : s.Idx → EReal) (K R : u.Idx → EReal) (i : s.Idx) (a : EReal)
    (hx : x i = 0) (hx' : x' i = 0) (ha : 0 ≤ a) (ha' : a ≠ ⊤)
    (h : ∀ j, d.resultIdx? j idx = some i → a * K j = R j) :
    a * Host.scatterAdd (F := Ideal) (φ := .f32) d x idx K i = Host.scatterAdd (F := Ideal) (φ := .f32) d' x' idx' R i := by
  subst hd hidx
  show a * Ideal.hostScatterAdd d x idx K i = Ideal.hostScatterAdd d x' idx R i
  unfold Ideal.hostScatterAdd
  rw [hx, hx', zero_add, zero_add, mul_sum _ _ ha ha']
  exact Finset.sum_congr rfl fun j hj => h j (Finset.mem_filter.mp hj).2

theorem dinv_entry (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by simp [Ideal.cmp, h]
    rw [hc, select_one]
    induction d using EReal.rec with
    | bot => exact absurd h (by simp)
    | top => exact (show (0 : EReal) ≤ 0 ∧ (0 : EReal) ≠ ⊤ from ⟨le_refl _, EReal.zero_ne_top⟩)
    | coe r =>
      have hr : 0 < r := by exact_mod_cast h
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      exact ⟨by exact_mod_cast inv_nonneg.mpr (Real.sqrt_nonneg r), EReal.coe_ne_top _⟩
  · have hc : Ideal.cmp .ogt d 0 = 0#1 := by simp [Ideal.cmp, h]
    rw [hc, select_zero]
    exact ⟨le_refl _, EReal.zero_ne_top⟩

theorem edge_term (di dr hw tv ew : EReal) (h : (ew = 1 ∧ tv = dr * hw) ∨ (ew = 0 ∧ tv = 0)) :
    di * tv = ((dr * ew) * di) * hw := by
  rcases h with ⟨h1, h2⟩ | ⟨h1, h2⟩
  · rw [h1, h2, mul_one, mul_comm dr di, mul_assoc]
  · rw [h1, h2, mul_zero, mul_zero, zero_mul, zero_mul]

end GcnAlg

end
-- ==== Proof.LibIdxCol.lean ====
/-
  General lemmas: a row gather, a vector gather and a row scatter whose start indices are a column `[M, 1]`, each
  read at an index.

  * `IdxCol.rowTake N M C`: gathering whole rows of a table `[N, C]` at a column of `M` start indices. Entry `(e, c)`
    of the result is the table's entry `(r, c)`, where `r` is start index `e` read as a signed integer and clamped
    into `[0, N − 1]`.
  * `IdxCol.vecTake N M`: gathering entries of a vector `[N]` at a column of `M` start indices: entry `e` of the
    result is the vector's entry at start index `e`, read signed and clamped into `[0, N − 1]`.
  * `IdxCol.rowPut N M C`: scattering the rows of an update `[M, C]` into a table `[N, C]` at a column of `M` row
    indices. When update entry `(e, c')` lands on table entry `(i, c)`, row index `e` read as a signed integer is `i`,
    and `c' = c`.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace IdxCol

variable {α : Type} {N M C w : Nat}

/-- Dimension numbers of a row gather: operand `[N, C]`, start indices `[M, 1]`, result `[M, C]`. -/
abbrev rowTake (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Dimension numbers of a vector gather: operand `[N]`, start indices `[M, 1]`, result `[M]`. -/
abbrev vecTake (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Dimension numbers of a row scatter: operand `[N, C]`, row indices `[M, 1]`, updates `[M, C]`. -/
abbrev rowPut (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The start-indices entry a row gather's result index `(e, c)` reads: `[e, 0]`. -/
theorem rowTake_siIdx (wf : GatherDims.WF ⟨2, ![N, C]⟩ ⟨2, ![M, 1]⟩ ⟨2, ![M, C]⟩ [1] [0] [] [0] [] 1 ![1, C])
    (y : (⟨2, ![M, C]⟩ : Shape).Idx) (h : List.idxOf (0 : Fin 2) (rowTake N M C wf).startIndexMap < (rowTake N M C wf).startIndexMap.length) :
    (rowTake N M C wf).siIdx y ⟨List.idxOf (0 : Fin 2) (rowTake N M C wf).startIndexMap, h⟩ = ix2 (y 0) 0 := by
  funext b; refine Fin.ext ?_
  match b with
  | ⟨0, _⟩ => rfl
  | ⟨1, _⟩ => rfl

theorem rowTake_axis0 (wf : GatherDims.WF ⟨2, ![N, C]⟩ ⟨2, ![M, 1]⟩ ⟨2, ![M, C]⟩ [1] [0] [] [0] [] 1 ![1, C])
    (idx : IVec ⟨2, ![M, 1]⟩ w) (y : (⟨2, ![M, C]⟩ : Shape).Idx) :
    (rowTake N M C wf).start y idx (0 : Fin 2) + (rowTake N M C wf).batchCoord y (0 : Fin 2) + (rowTake N M C wf).offCoord y (0 : Fin 2)
      = min (idx (ix2 (y 0) 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTake N M C wf).startIndexMap from List.mem_singleton.mpr rfl), rowTake_siIdx]
  rfl

theorem rowTake_axis1 (wf : GatherDims.WF ⟨2, ![N, C]⟩ ⟨2, ![M, 1]⟩ ⟨2, ![M, C]⟩ [1] [0] [] [0] [] 1 ![1, C])
    (idx : IVec ⟨2, ![M, 1]⟩ w) (y : (⟨2, ![M, C]⟩ : Shape).Idx) :
    (rowTake N M C wf).start y idx (1 : Fin 2) + (rowTake N M C wf).batchCoord y (1 : Fin 2) + (rowTake N M C wf).offCoord y (1 : Fin 2)
      = (y 1).val := by
  rw [GatherDims.batchCoord_eq_zero _ _ _ List.not_mem_nil]
  have h0 : (rowTake N M C wf).start y idx (1 : Fin 2) = 0 := by
    unfold GatherDims.start
    rw [dif_neg (show (1 : Fin 2) ∉ ([0] : List (Fin 2)) from by decide)]
  rw [h0]
  simp only [Nat.zero_add, Nat.add_zero]
  unfold GatherDims.offCoord
  rw [dif_pos (show (1 : Fin 2) ∈ (rowTake N M C wf).sKept from by
    rw [GatherDims.mem_sKept]; exact ⟨by show (1 : Fin 2) ∉ ([0] : List (Fin 2)); decide, List.not_mem_nil⟩)]
  rfl

/-- THE ROW GATHER READ AT `(e, c)`. -/
theorem rowTake_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowTake N M C wf) x idx y
      = x (ix2 ⟨min (idx (ix2 (y 0) 0)).toInt.toNat (N - 1), by omega⟩ (y 1)) := by
  unfold Host.gather
  congr 1
  funext a
  refine Fin.ext ?_
  match a with
  | ⟨0, _⟩ => exact rowTake_axis0 wf idx y
  | ⟨1, _⟩ => exact rowTake_axis1 wf idx y

/-- The same with the start index named: for a start-indices array known at `[e, 0]`. -/
theorem rowTake_apply_of (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx)
    (v : BitVec w) (hv : idx (ix2 (y 0) 0) = v) :
    Host.gather (rowTake N M C wf) x idx y = x (ix2 ⟨min v.toInt.toNat (N - 1), by omega⟩ (y 1)) := by
  subst hv; exact rowTake_apply hN wf x idx y

/-- THE VECTOR GATHER READ AT `e`. -/
theorem vecTake_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (vecTake N M wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (vecTake N M wf).start y idx 0 + (vecTake N M wf).batchCoord y 0 + (vecTake N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N M wf).startIndexMap from List.mem_singleton.mpr rfl)]
  have hsi : (vecTake N M wf).siIdx y ⟨List.idxOf (0 : Fin 1) (vecTake N M wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same with the start index named. -/
theorem vecTake_apply_of (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx)
    (v : BitVec w) (hv : idx (ix2 (y 0) 0) = v) :
    Host.gather (vecTake N M wf) x idx y = x (ix1 ⟨min v.toInt.toNat (N - 1), by omega⟩) := by
  subst hv; exact vecTake_apply hN wf x idx y

theorem rowPut_siIdx (wf : ScatterDims.WF ⟨2, ![N, C]⟩ ⟨2, ![M, 1]⟩ ⟨2, ![M, C]⟩ [1] [0] [0] 1)
    (j : (⟨2, ![M, C]⟩ : Shape).Idx)
    (h : List.idxOf (0 : Fin 2) (rowPut N M C wf).scatterDimsToOperandDims < (rowPut N M C wf).scatterDimsToOperandDims.length) :
    (rowPut N M C wf).siIdx j ⟨List.idxOf (0 : Fin 2) (rowPut N M C wf).scatterDimsToOperandDims, h⟩ = ix2 (j 0) 0 := by
  funext b; refine Fin.ext ?_
  match b with
  | ⟨0, _⟩ => rfl
  | ⟨1, _⟩ => rfl

theorem rowPut_start0 (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowPut N M C wf).start j idx (0 : Fin 2) = (idx (ix2 (j 0) 0)).toInt := by
  unfold ScatterDims.start
  rw [dif_pos (show (0 : Fin 2) ∈ (rowPut N M C wf).scatterDimsToOperandDims from List.mem_singleton.mpr rfl), rowPut_siIdx]
  rfl

theorem rowPut_window0 (wf : ScatterDims.WF ⟨2, ![N, C]⟩ ⟨2, ![M, 1]⟩ ⟨2, ![M, C]⟩ [1] [0] [0] 1)
    (j : (⟨2, ![M, C]⟩ : Shape).Idx) : (rowPut N M C wf).window j (0 : Fin 2) = 0 := by
  unfold ScatterDims.window
  rw [dif_neg (show (0 : Fin 2) ∉ (rowPut N M C wf).sKept from by
    show (0 : Fin 2) ∉ (⟨2, ![N, C]⟩ : Shape).kept [0]
    simp [Shape.kept, List.mem_filter])]

theorem rowPut_start1 (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowPut N M C wf).start j idx (1 : Fin 2) = 0 := by
  unfold ScatterDims.start
  rw [dif_neg (show (1 : Fin 2) ∉ ([0] : List (Fin 2)) from by decide)]

theorem rowPut_window1 (wf : ScatterDims.WF ⟨2, ![N, C]⟩ ⟨2, ![M, 1]⟩ ⟨2, ![M, C]⟩ [1] [0] [0] 1)
    (j : (⟨2, ![M, C]⟩ : Shape).Idx) : (rowPut N M C wf).window j (1 : Fin 2) = (j 1).val := by
  unfold ScatterDims.window
  rw [dif_pos (show (1 : Fin 2) ∈ (rowPut N M C wf).sKept from by
    show (1 : Fin 2) ∈ (⟨2, ![N, C]⟩ : Shape).kept [0]
    simp [Shape.kept, List.mem_filter, List.mem_finRange])]
  rfl

/-- WHERE A ROW SCATTER'S UPDATE ENTRY LANDS: on the row its index names, in its own column. -/
theorem rowPut_lands (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx)
    (h : (rowPut N M C wf).resultIdx? j idx = some i) :
    (idx (ix2 (j 0) 0)).toInt = ((i 0).val : Int) ∧ (j 1).val = (i 1).val := by
  unfold ScatterDims.resultIdx? at h
  split at h
  · next hin =>
    have hi := Option.some.inj h
    have e0 : (i 0).val = ((rowPut N M C wf).start j idx (0 : Fin 2) + (rowPut N M C wf).window j (0 : Fin 2)).toNat := by
      rw [← hi]
    have e1 : (i 1).val = ((rowPut N M C wf).start j idx (1 : Fin 2) + (rowPut N M C wf).window j (1 : Fin 2)).toNat := by
      rw [← hi]
    have p0 := (hin (0 : Fin 2)).1
    rw [rowPut_start0, rowPut_window0] at e0 p0
    rw [rowPut_start1, rowPut_window1] at e1
    constructor
    · simp only [Nat.cast_zero, add_zero] at e0 p0; omega
    · simp only [zero_add, Int.toNat_natCast] at e1; omega
  · exact absurd h (by simp)

end IdxCol

end
-- ==== Proof.LayerPre.lean ====
/-
  The pieces of one layer's aggregate, each read at an index (floats are extended reals): the degree factor at a node,
  the kernel's table padded with a zero row, the kernel's and the reference's gathers at a slot, where an update of
  the scatter lands, a slot's coefficient, and the clamp of an index that is already a node number.
-/
import proofs.«113241_j59012850647682_2_alg».proof.Proof.KHost
import proofs.«113241_j59012850647682_2_alg».proof.Proof.KFns
import proofs.«113241_j59012850647682_2_alg».proof.Proof.KDefs
import proofs.«113241_j59012850647682_2_alg».proof.Proof.RefVal
import proofs.«113241_j59012850647682_2_alg».proof.Proof.Slots
import proofs.«113241_j59012850647682_2_alg».proof.Proof.LibGcnAlg
import proofs.«113241_j59012850647682_2_alg».proof.Proof.LibIdxCol
import proofs.«113241_j59012850647682_2_alg».proof.Proof.LibCols
import proofs.«113241_j59012850647682_2_alg».proof.Proof.LibPlainDot

set_option maxRecDepth 16384

noncomputable section

namespace Cert.KernelIdeal.RegVal

open Cert.KernelIdeal Cert.KernelIdeal.Gen Idealize.ShloMosaic Idealize.ShloMosaic.ValueIdx
open Cert.ReferenceIdeal.RefVal (aggR normOf dinvOf degOf wrapI relu biasAdd rOut)

/-- `1/√deg` where `deg > 0`, else 0, at a node. -/
theorem dinvK_apply (deg : FVec Ideal S100000 .f32) (n : S100000.Idx) :
    dinvK deg n = Scalar.select (Ideal.cmp .ogt (deg n) 0) (Ideal.rsqrt (deg n)) (0 : EReal) := by
  unfold dinvK
  rw [select_apply, cmpf_apply]
  simp only [id]
  rw [PlainDot.broadcastInDim_scalar, constant_apply, Ideal.ofBits_zero_f32]
  rfl

/-- The padded table. -/
def padded (T : FVec Ideal S100000x128 .f32) : FVec Ideal S100001x128 .f32 :=
  concatenate S100001x128 0 [⟨S100000x128, T⟩,
    ⟨S1x128, broadcastInDim S1x128 ![] bcast_S_S1x128 (constant (F := Ideal) S_ .f32 0x00000000#32)⟩]
    concatenates_S100000x128_S1x128_S100001x128_d0

/-- A node's row of the padded table is its row of the table. -/
theorem padded_node (T : FVec Ideal S100000x128 .f32) (r : Fin 100001) (h : r.val < 100000) (c : Fin 128) :
    padded T (ix2 r c) = T (ix2 ⟨r.val, h⟩ c) :=
  concatenate_pair_apply_left 0 T _ concatenates_S100000x128_S1x128_S100001x128_d0 (ix2 r c) rfl (ix2 ⟨r.val, h⟩ c)
    (fun b => by
      match b with
      | ⟨0, _⟩ => rfl
      | ⟨1, _⟩ => rfl)

/-- The last row of the padded table is zero. -/
theorem padded_pad (T : FVec Ideal S100000x128 .f32) (r : Fin 100001) (h : r.val = 100000) (c : Fin 128) :
    padded T (ix2 r c) = 0 := by
  unfold padded
  rw [concatenate_pair_apply_right 0 T _ concatenates_S100000x128_S1x128_S100001x128_d0 (ix2 r c) rfl rfl (ix2 0 c)
    (fun b hb => by
      match b with
      | ⟨0, _⟩ => exact absurd rfl hb
      | ⟨1, _⟩ => rfl)
    (by show 0 + 100000 = r.val; omega),
    PlainDot.broadcastInDim_scalar, constant_apply, Ideal.ofBits_zero_f32]

variable (ei : IVec S2x640000 32)

/-- The kernel's gather at slot `e`, column `c`. -/
theorem kGather_apply (T : FVec Ideal S100000x128 .f32) (radj : IVec S740000 32) (j : S740000x128.Idx) :
    Host.gather gather_S100001x128_S740000x1_S740000x128_1_0_n_n_0_1_1128 (padded T)
      (broadcastInDim S740000x1 ![0] bcast_S740000_S740000x1_0
        (select (cmpi .slt radj (broadcastInDim S740000 ![] bcast_S_S740000 (constantI S_ 32 0#32)))
          (addi radj (broadcastInDim S740000 ![] bcast_S_S740000 (constantI S_ 32 100001#32))) radj)) j
      = padded T (ix2 ⟨min (select (cmpi .slt radj (broadcastInDim S740000 ![] bcast_S_S740000 (constantI S_ 32 0#32)))
          (addi radj (broadcastInDim S740000 ![] bcast_S_S740000 (constantI S_ 32 100001#32))) radj (ix1 (j 0))).toInt.toNat (100001 - 1),
          by omega⟩ (j 1)) := by
  exact IdxCol.rowTake_apply_of (N := 100001) (M := 740000) (C := 128) (by decide)
    gather_S100001x128_S740000x1_S740000x128_1_0_n_n_0_1_1128_wf _ _ j _ (ColLayout.broadcastInDim_vec_col _ _ _)

/-- Where an update entry of the row scatter lands. -/
theorem lands (col : IVec S740000 32) (j : S740000x128.Idx) (i : S100000x128.Idx)
    (h : scatter_S100000x128_S740000x1_S740000x128_1_0_0_1.resultIdx? j
      (broadcastInDim S740000x1 ![0] bcast_S740000_S740000x1_0 col) = some i) :
    (col (ix1 (j 0))).toInt = ((i 0).val : Int) ∧ (j 1).val = (i 1).val := by
  have h' : (IdxCol.rowPut 100000 740000 128 scatter_S100000x128_S740000x1_S740000x128_1_0_0_1_wf).resultIdx? j
      (broadcastInDim S740000x1 ![0] bcast_S740000_S740000x1_0 col) = some i := h
  have := IdxCol.rowPut_lands _ _ j i h'
  rwa [ColLayout.broadcastInDim_vec_col] at this

/-- The reference's row gather at slot `e`, column `c`. -/
theorem rGather_apply (P : FVec Ideal S100000x128 .f32) (row : IVec S740000 32) (j : S740000x128.Idx) :
    Host.gather Cert.ReferenceIdeal.gather_S100000x128_S740000x1_S740000x128_1_0_n_n_0_1_1128 P
      (broadcastInDim S740000x1 ![0] bcast_S740000_S740000x1_0 (wrapI row)) j
      = P (ix2 ⟨min (wrapI row (ix1 (j 0))).toInt.toNat (100000 - 1), by omega⟩ (j 1)) := by
  exact IdxCol.rowTake_apply_of (N := 100000) (M := 740000) (C := 128) (by decide)
    Cert.ReferenceIdeal.Facts₀.gather_S100000x128_S740000x1_S740000x128_1_0_n_n_0_1_1128_wf _ _ j _
    (ColLayout.broadcastInDim_vec_col _ _ _)

theorem ix1_eta (e : S740000.Idx) : (ix1 (e 0) : S740000.Idx) = e :=
  funext fun a => by obtain rfl : a = 0 := Subsingleton.elim _ _; rfl

/-- The reference's vector gather at slot `e`. -/
theorem vGather_apply (d : FVec Ideal S100000 .f32) (v : IVec S740000 32) (e : S740000.Idx) :
    Host.gather Cert.ReferenceIdeal.gather_S100000_S740000x1_S740000_n_0_n_n_0_1_1 d
      (broadcastInDim S740000x1 ![0] bcast_S740000_S740000x1_0 (wrapI v)) e
      = d (ix1 ⟨min (wrapI v e).toInt.toNat (100000 - 1), by omega⟩) :=
  IdxCol.vecTake_apply_of (N := 100000) (M := 740000) (by decide)
    Cert.ReferenceIdeal.Facts₀.gather_S100000_S740000x1_S740000_n_0_n_n_0_1_1_wf _ _ e _
    ((ColLayout.broadcastInDim_vec_col _ _ _).trans (congrArg (wrapI v) (ix1_eta e)))

/-- A slot's coefficient. -/
theorem norm_apply (d : FVec Ideal S100000 .f32) (row col : IVec S740000 32) (ew : FVec Ideal S740000 .f32) (e : S740000.Idx) :
    normOf d row col ew e
      = (d (ix1 ⟨min (wrapI row e).toInt.toNat (100000 - 1), by omega⟩) * ew e)
        * d (ix1 ⟨min (wrapI col e).toInt.toNat (100000 - 1), by omega⟩) := by
  unfold normOf
  rw [mulf_apply, mulf_apply, vGather_apply, vGather_apply]

/-- The coefficients broadcast over the 128 columns read the slot's coefficient. -/
theorem normbc_apply (nrm : FVec Ideal S740000 .f32) (j : S740000x128.Idx) :
    broadcastInDim S740000x128 ![0, 1] Cert.ReferenceIdeal.Facts₀.bcast_S740000x1_S740000x128_0_1
      (broadcastInDim S740000x1 ![0] bcast_S740000_S740000x1_0 nrm) j = nrm (ix1 (j 0)) := by
  rw [ColLayout.broadcastInDim_col, ColLayout.broadcastInDim_vec_col]
  try rfl

/-- An index that is a node number `r`, read signed and clamped into `[0, n]` with `r ≤ n`, is `r`. -/
theorem clamp_id (x : BitVec 32) (r n : Nat) (h : x.toInt = (r : Int)) (hr : r ≤ n) : min x.toInt.toNat n = r := by
  rw [h]; simp only [Int.toNat_natCast]; omega

end Cert.KernelIdeal.RegVal

end
-- ==== Proof.Layer.lean ====
/-
  One layer's aggregate: the kernel's and the reference's are one array (floats are extended reals).

  Fix a target row `i`. Both programs add, over the same slots (those whose target index is `i`), one gathered row per
  slot. For a valid slot with source `r` the kernel gathers row `r` of `T = D ⊙ P` (`P` the product of the features with
  the transposed weights), the reference gathers row `r` of `P` and scales it by `(D[r] · 1) · D[i]`; for a slot that is
  not valid the kernel gathers the zero row of the padded table and the reference scales by `(D[r'] · 0) · D[i]`. The
  kernel multiplies its sum by `D[i]` afterwards; `D[i]` is a nonnegative real, so it distributes over the sum, and term
  by term the two sides agree by commutativity and associativity alone. In-range source indices are what make the two
  gathers read the same row `r`: the tables have 100001 and 100000 rows, and an out-of-range index would wrap or clamp
  differently in the two.
-/
import proofs.«113241_j59012850647682_2_alg».proof.Proof.LayerPre

set_option maxRecDepth 16384

noncomputable section

namespace Cert.KernelIdeal.RegVal

open Cert.KernelIdeal Cert.KernelIdeal.Gen Idealize.ShloMosaic Idealize.ShloMosaic.ValueIdx
open Cert.ReferenceIdeal.RefVal (aggR normOf dinvOf degOf wrapI relu biasAdd rOut)

variable (ei : IVec S2x640000 32)

/-- The reference's term of a slot whose source is node `r` and whose target is row `i`. -/
theorem slotR (H : FVec Ideal S100000x128 .f32) (W : FVec Ideal S128x128 .f32) (j : S740000x128.Idx) (i : S100000x128.Idx)
    (r : Nat) (hrlt : r < 100000) (hr : (withLoopsK (srcK ei) (ix1 (j 0))).toInt = (r : Int))
    (hc : (withLoopsK (dstK ei) (ix1 (j 0))).toInt = ((i 0).val : Int)) (hjc : (j 1) = (i 1)) :
    (mulf (broadcastInDim Cert.ReferenceIdeal.S740000x128 ![0, 1] Cert.ReferenceIdeal.Facts₀.bcast_S740000x1_S740000x128_0_1
        (broadcastInDim Cert.ReferenceIdeal.S740000x1 ![0] Cert.ReferenceIdeal.Facts₀.bcast_S740000_S740000x1_0 (normOf (dinvK (degK (withLoopsK (dstK ei)) (ewK ei))) (withLoopsK (srcK ei)) (withLoopsK (dstK ei)) (ewK ei))))
      (Host.gather Cert.ReferenceIdeal.gather_S100000x128_S740000x1_S740000x128_1_0_n_n_0_1_1128
        (Host.dotGeneral Cert.ReferenceIdeal.dot_S100000x128_S128x128_S100000x128_1_0_0_1_n_n none H
          (transpose Cert.ReferenceIdeal.S128x128 [1, 0] W Cert.ReferenceIdeal.Facts₀.transposes_S128x128_S128x128_1_0))
        (broadcastInDim Cert.ReferenceIdeal.S740000x1 ![0] Cert.ReferenceIdeal.Facts₀.bcast_S740000_S740000x1_0 (wrapI (withLoopsK (srcK ei))))) : FVec Ideal Cert.ReferenceIdeal.S740000x128 .f32) j
      = ((dinvK (degK (withLoopsK (dstK ei)) (ewK ei)) (ix1 ⟨r, hrlt⟩) * ewK ei (ix1 (j 0))) * dinvK (degK (withLoopsK (dstK ei)) (ewK ei)) (ix1 (i 0)))
        * ∑ k : Fin 128, H (ix2 ⟨r, hrlt⟩ k) * transpose S128x128 [1, 0] W transposes_S128x128_S128x128_1_0 (ix2 k (i 1)) := by
  have hi0 : (i 0).val < 100000 := (i 0).isLt
  have wr : wrapI (withLoopsK (srcK ei)) (ix1 (j 0)) = withLoopsK (srcK ei) (ix1 (j 0)) :=
    wrap_nonneg _ _ _ (by rw [hr]; exact Int.natCast_nonneg _)
  have wc : wrapI (withLoopsK (dstK ei)) (ix1 (j 0)) = withLoopsK (dstK ei) (ix1 (j 0)) :=
    wrap_nonneg _ _ _ (by rw [hc]; exact Int.natCast_nonneg _)
  have c1 : min (wrapI (withLoopsK (srcK ei)) (ix1 (j 0))).toInt.toNat (100000 - 1) = r := by
    rw [wr]; exact clamp_id _ r _ hr (by omega)
  have c2 : min (wrapI (withLoopsK (dstK ei)) (ix1 (j 0))).toInt.toNat (100000 - 1) = (i 0).val := by
    rw [wc]; exact clamp_id _ _ _ hc (by omega)
  rw [mulf_apply, normbc_apply, norm_apply, rGather_apply]
  simp only [c1, c2]
  rw [show (Host.dotGeneral Cert.ReferenceIdeal.dot_S100000x128_S128x128_S100000x128_1_0_0_1_n_n none H
        (transpose Cert.ReferenceIdeal.S128x128 [1, 0] W Cert.ReferenceIdeal.Facts₀.transposes_S128x128_S128x128_1_0) : FVec Ideal S100000x128 .f32)
      = Host.dotGeneral (DotDims.plain 100000 128 128) none H (transpose S128x128 [1, 0] W transposes_S128x128_S128x128_1_0) from rfl,
    PlainDot.dotGeneral_apply, hjc]
  rfl

/-- The kernel's term of a valid slot whose source is node `r`: row `r` of the table. -/
theorem slotK_valid (T : FVec Ideal S100000x128 .f32) (j : S740000x128.Idx) (r : Nat) (hrlt : r < 100000)
    (hr : (withLoopsK (srcK ei) (ix1 (j 0))).toInt = (r : Int)) (hv : validAll ei (ix1 (j 0)) = 1#1) :
    (Host.gather gather_S100001x128_S740000x1_S740000x128_1_0_n_n_0_1_1128
      (concatenate S100001x128 0 [⟨S100000x128, T⟩,
        ⟨S1x128, broadcastInDim S1x128 ![] bcast_S_S1x128 (constant (F := Ideal) S_ .f32 0x00000000#32)⟩]
        concatenates_S100000x128_S1x128_S100001x128_d0)
      (broadcastInDim S740000x1 ![0] bcast_S740000_S740000x1_0 (select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))))) j = T (ix2 ⟨r, hrlt⟩ (j 1)) := by
  have hadj : rowAdjK (validAll ei) (withLoopsK (srcK ei)) (ix1 (j 0)) = withLoopsK (srcK ei) (ix1 (j 0)) := by
    unfold rowAdjK; rw [select_apply, hv, select_one]
  have hw : (select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))) (ix1 (j 0)) = withLoopsK (srcK ei) (ix1 (j 0)) := by
    rw [wrap_nonneg _ _ _ (by rw [hadj, hr]; exact Int.natCast_nonneg _), hadj]
  have c3 : min ((select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))) (ix1 (j 0))).toInt.toNat (100001 - 1) = r := by
    rw [hw]; exact clamp_id _ r _ hr (by omega)
  rw [show (Host.gather gather_S100001x128_S740000x1_S740000x128_1_0_n_n_0_1_1128
      (concatenate S100001x128 0 [⟨S100000x128, T⟩,
        ⟨S1x128, broadcastInDim S1x128 ![] bcast_S_S1x128 (constant (F := Ideal) S_ .f32 0x00000000#32)⟩]
        concatenates_S100000x128_S1x128_S100001x128_d0)
      (broadcastInDim S740000x1 ![0] bcast_S740000_S740000x1_0 (select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))))) j = _ from kGather_apply T _ j]
  simp only [c3]
  exact padded_node T ⟨r, by omega⟩ hrlt (j 1)

/-- The kernel's term of a slot that is not valid: the zero row. -/
theorem slotK_invalid (T : FVec Ideal S100000x128 .f32) (j : S740000x128.Idx)
    (hv0 : validAll ei (ix1 (j 0)) = 0#1) :
    (Host.gather gather_S100001x128_S740000x1_S740000x128_1_0_n_n_0_1_1128
      (concatenate S100001x128 0 [⟨S100000x128, T⟩,
        ⟨S1x128, broadcastInDim S1x128 ![] bcast_S_S1x128 (constant (F := Ideal) S_ .f32 0x00000000#32)⟩]
        concatenates_S100000x128_S1x128_S100001x128_d0)
      (broadcastInDim S740000x1 ![0] bcast_S740000_S740000x1_0 (select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))))) j = 0 := by
  have hadj : rowAdjK (validAll ei) (withLoopsK (srcK ei)) (ix1 (j 0)) = 100000#32 := by
    unfold rowAdjK
    rw [select_apply, hv0, select_zero, PlainDot.broadcastInDim_scalar]
    rfl
  have h100 : (100000#32 : BitVec 32).toInt = (100000 : Int) := by decide
  have hw : (select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))) (ix1 (j 0)) = 100000#32 := by
    rw [wrap_nonneg _ _ _ (by rw [hadj, h100]; omega), hadj]
  have c3 : min ((select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))) (ix1 (j 0))).toInt.toNat (100001 - 1) = 100000 := by
    rw [hw, h100]; rfl
  rw [show (Host.gather gather_S100001x128_S740000x1_S740000x128_1_0_n_n_0_1_1128
      (concatenate S100001x128 0 [⟨S100000x128, T⟩,
        ⟨S1x128, broadcastInDim S1x128 ![] bcast_S_S1x128 (constant (F := Ideal) S_ .f32 0x00000000#32)⟩]
        concatenates_S100000x128_S1x128_S100001x128_d0)
      (broadcastInDim S740000x1 ![0] bcast_S740000_S740000x1_0 (select (cmpi .slt (rowAdjK (validAll ei) (withLoopsK (srcK ei))) (broadcastInDim S740000 ![] bcast_S_S740000 (constantI S_ 32 0#32)))
          (addi (rowAdjK (validAll ei) (withLoopsK (srcK ei))) (broadcastInDim S740000 ![] bcast_S_S740000 (constantI S_ 32 100001#32))) (rowAdjK (validAll ei) (withLoopsK (srcK ei)))))) j = _ from kGather_apply T _ j]
  simp only [c3]
  exact padded_pad T ⟨100000, by omega⟩ rfl (j 1)

/-- ONE LAYER'S AGGREGATE, SCALED BY THE TARGET'S FACTOR, IS THE REFERENCE'S. -/
theorem layer_eq (hin : InRange ei) (H : FVec Ideal S100000x128 .f32) (W : FVec Ideal S128x128 .f32)
    (T : FVec Ideal S100000x128 .f32)
    (hT : ∀ j : S100000x128.Idx, T j
      = dinvK (degK (withLoopsK (dstK ei)) (ewK ei)) (ix1 (j 0))
        * ∑ k : Fin 128, H (ix2 (j 0) k) * transpose S128x128 [1, 0] W transposes_S128x128_S128x128_1_0 (ix2 k (j 1)))
    (i : S100000x128.Idx) :
    dinvK (degK (withLoopsK (dstK ei)) (ewK ei)) (ix1 (i 0)) * aggK (withLoopsK (dstK ei)) (rowAdjK (validAll ei) (withLoopsK (srcK ei))) T i
      = aggR (withLoopsK (srcK ei)) (withLoopsK (dstK ei)) (normOf (dinvK (degK (withLoopsK (dstK ei)) (ewK ei))) (withLoopsK (srcK ei)) (withLoopsK (dstK ei)) (ewK ei)) H W i := by
  obtain ⟨ha, ha'⟩ := GcnAlg.dinv_entry (degK (withLoopsK (dstK ei)) (ewK ei) (ix1 (i 0)))
  have e := dinvK_apply (degK (withLoopsK (dstK ei)) (ewK ei)) (ix1 (i 0))
  rw [← e] at ha ha'
  unfold aggK aggR
  refine GcnAlg.scaled_scatterAdd _ _ rfl _ _ rfl _ _ _ _ i _
    (by rw [PlainDot.broadcastInDim_scalar, constant_apply, Ideal.ofBits_zero_f32])
    (by rw [PlainDot.broadcastInDim_scalar, constant_apply, Ideal.ofBits_zero_f32]) ha ha' (fun j hj => ?_)
  obtain ⟨hc, hcol⟩ := lands (withLoopsK (dstK ei)) j i hj
  obtain ⟨hr0, hr1⟩ := row_inRange ei hin (ix1 (j 0))
  obtain ⟨r, hr⟩ : ∃ r : Nat, (withLoopsK (srcK ei) (ix1 (j 0))).toInt = (r : Int) := ⟨_, (Int.toNat_of_nonneg hr0).symm⟩
  have hrlt : r < 100000 := by omega
  have hjc : (j 1) = (i 1) := Fin.ext hcol
  refine Eq.trans (GcnAlg.edge_term _ (dinvK (degK (withLoopsK (dstK ei)) (ewK ei)) (ix1 ⟨r, hrlt⟩)) _ _ (ewK ei (ix1 (j 0))) ?_) (slotR ei H W j i r hrlt hr hc hjc).symm
  by_cases hv : validAll ei (ix1 (j 0)) = 1#1
  · refine Or.inl ⟨ewK_one ei _ hv, (slotK_valid ei T j r hrlt hr hv).trans ?_⟩
    rw [hT, hjc]
    try rfl
  · exact Or.inr ⟨ewK_zero ei _ (eq_zero_of_ne_one hv), slotK_invalid ei T j (eq_zero_of_ne_one hv)⟩

end Cert.KernelIdeal.RegVal

end
-- ==== Proof.Bridge.lean ====
/-
  The kernel's result is the reference's, entry by entry (floats are extended reals), when the edge list is in range.

  Write `D` for the degree factors, `Sₗ` for the kernel's aggregates and `Aₗ` for the reference's. Layer by layer
  `D[i] · Sₗ[i,c] = Aₗ[i,c]`: for the first layer both gather rows of `x · W₀ᵀ`; for a later layer the kernel's input
  `max (D ⊙ Sₗ₋₁ + b) 0` is the reference's `max (Aₗ₋₁ + b) 0` by the previous layer. The last launch's
  `D ⊙ S₄ + b₄` is then `A₄ + b₄`.
-/
import proofs.«113241_j59012850647682_2_alg».proof.Proof.Layer
import proofs.«113241_j59012850647682_2_alg».proof.Proof.KValue

set_option maxRecDepth 16384

noncomputable section

namespace Cert.KernelIdeal.RegVal

open Cert.KernelIdeal Cert.KernelIdeal.Gen Idealize.ShloMosaic Idealize.ShloMosaic.ValueIdx
open Cert.ReferenceIdeal.RefVal (aggR normOf dinvOf degOf wrapI relu biasAdd rOut)

theorem rs_apply (b : FVec Ideal S128 .f32) (k : Fin 128) :
    shapeCast S1x128 b shapeCasts_S128_S1x128 (ix2 0 k) = b (ix1 k) :=
  PlainDot.shapeCast_vec_row b _ (ix2 0 k)

theorem dcol_apply (d : FVec Ideal S100000 .f32) (r : Fin 100000) :
    shapeCast S100000x1 d shapeCasts_S100000_S100000x1 (ix2 r 0) = d (ix1 r) :=
  ColLayout.shapeCast_vec_col d _ (ix2 r 0)

theorem biasAdd_apply (S : FVec Ideal S100000x128 .f32) (b : FVec Ideal S128 .f32) (j : S100000x128.Idx) :
    biasAdd S b j = S j + b (ix1 (j 1)) := by
  unfold biasAdd
  rw [addf_apply, PlainDot.broadcastInDim_row, PlainDot.broadcastInDim_vec_row]
  try rfl

theorem relu_apply (X : FVec Ideal S100000x128 .f32) (j : S100000x128.Idx) :
    relu X j = max (X j) (Ideal.ofBits .f32 0x00000000#32) := by
  unfold relu
  rw [maximumf_apply, PlainDot.broadcastInDim_scalar, constant_apply]

section Chain
variable (ei : IVec S2x640000 32)

/-- The first layer. -/
theorem first_layer (hin : InRange ei) (x : FVec Ideal S100000x128 .f32) (w : FVec Ideal S128x128 .f32) (i : S100000x128.Idx) :
    dinvK (degK (withLoopsK (dstK ei)) (ewK ei)) (ix1 (i 0))
        * aggK (withLoopsK (dstK ei)) (rowAdjK (validAll ei) (withLoopsK (srcK ei)))
            (scaledProd x (shapeCast S100000x1 (dinvK (degK (withLoopsK (dstK ei)) (ewK ei))) shapeCasts_S100000_S100000x1)
              (transpose S128x128 [1, 0] w transposes_S128x128_S128x128_1_0)) i
      = aggR (withLoopsK (srcK ei)) (withLoopsK (dstK ei))
          (normOf (dinvK (degK (withLoopsK (dstK ei)) (ewK ei))) (withLoopsK (srcK ei)) (withLoopsK (dstK ei)) (ewK ei)) x w i :=
  layer_eq ei hin x w _ (fun j => by unfold scaledProd; rw [dcol_apply _ (j 0)]) i

/-- A later layer, from the previous one. -/
theorem next_layer (hin : InRange ei) (s a : FVec Ideal S100000x128 .f32)
    (h : ∀ i : S100000x128.Idx, dinvK (degK (withLoopsK (dstK ei)) (ewK ei)) (ix1 (i 0)) * s i = a i)
    (b : FVec Ideal S128 .f32) (w : FVec Ideal S128x128 .f32) (i : S100000x128.Idx) :
    dinvK (degK (withLoopsK (dstK ei)) (ewK ei)) (ix1 (i 0))
        * aggK (withLoopsK (dstK ei)) (rowAdjK (validAll ei) (withLoopsK (srcK ei)))
            (fusedLayer s (shapeCast S100000x1 (dinvK (degK (withLoopsK (dstK ei)) (ewK ei))) shapeCasts_S100000_S100000x1)
              (shapeCast S1x128 b shapeCasts_S128_S1x128) (transpose S128x128 [1, 0] w transposes_S128x128_S128x128_1_0)) i
      = aggR (withLoopsK (srcK ei)) (withLoopsK (dstK ei))
          (normOf (dinvK (degK (withLoopsK (dstK ei)) (ewK ei))) (withLoopsK (srcK ei)) (withLoopsK (dstK ei)) (ewK ei))
          (relu (biasAdd a b)) w i :=
  layer_eq ei hin (relu (biasAdd a b)) w _ (fun j => by
    unfold fusedLayer
    rw [dcol_apply _ (j 0)]
    refine congrArg _ (Finset.sum_congr rfl fun k _ => ?_)
    rw [relu_apply, biasAdd_apply, ← h (ix2 (j 0) k), rs_apply b k]) i

/-- THE TWO RESULTS ARE ONE ARRAY. -/
theorem out_eq (hin : InRange ei) (x : FVec Ideal S100000x128 .f32)
    (w0 : FVec Ideal S128x128 .f32) (b0 : FVec Ideal S128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32) :
    kOut (withLoopsK (dstK ei)) (rowAdjK (validAll ei) (withLoopsK (srcK ei)))
        (shapeCast S100000x1 (dinvK (degK (withLoopsK (dstK ei)) (ewK ei))) shapeCasts_S100000_S100000x1)
        x w0 b0 w1 b1 w2 b2 w3 b3 w4 b4
      = rOut x ei w0 b0 w1 b1 w2 b2 w3 b3 w4 b4 := by
  have hew : Cert.ReferenceIdeal.RefVal.ewR ei = ewK ei :=
    (show Cert.ReferenceIdeal.RefVal.ewR ei = ewAlt ei from rfl).trans (ewAlt_eq ei)
  have e0 := first_layer ei hin x w0
  have e1 := next_layer ei hin _ _ e0 b0 w1
  have e2 := next_layer ei hin _ _ e1 b1 w2
  have e3 := next_layer ei hin _ _ e2 b2 w3
  have e4 := next_layer ei hin _ _ e3 b3 w4
  funext i
  simp only [rOut, hew]
  refine Eq.trans ?_ (biasAdd_apply _ _ i).symm
  unfold kOut
  dsimp only
  unfold scaleAdd
  rw [dcol_apply _ (i 0), e4 i, rs_apply b4 (i 1)]
  try rfl

end Chain

end Cert.KernelIdeal.RegVal

end
-- ==== Proof.PreRange.lean ====
/-
  What the precondition says of the edge list: every entry is a node number.

  The precondition is a conjunction; its last two conjuncts are "every entry of the edge list is at least 0" and
  "every entry of the edge list is less than 100000", each a comparison reduced by `and` over the whole list. A
  reduction by `and` that is 1 had a 1 at every entry, and a signed comparison that is 1 says its inequality of the
  entries read as signed integers.
-/
import proofs.«113241_j59012850647682_2_alg».proof.Pre_finite_inputs
import proofs.«113241_j59012850647682_2_alg».proof.Proof.Gen.Pre_finite_inputs
import proofs.«113241_j59012850647682_2_alg».proof.Proof.LibPlainDot
import Idealize.ShloMosaic.Lib.ReduceAll
import Idealize.ShloMosaic.Lib.Affine
import Idealize.ShloMosaic.Lib.ValueIdx
import Idealize.ShloMosaic.Lib.ValueLayout
import Idealize.ShloMosaic.PureOps.Ideal.Laws

set_option maxRecDepth 16384

noncomputable section

namespace Cert.Pre_finite_inputs.Range

open Cert.Pre_finite_inputs Cert.Pre_finite_inputs.Gen Idealize.ShloMosaic Idealize.ShloMosaic.ValueIdx

instance : Subsingleton S_.Idx := ⟨fun a b => funext fun d => d.elim0⟩

theorem inRange_of_pre (x : FVec Ideal S100000x128 .f32) (ei : IVec S2x640000 32)
    (w0 : FVec Ideal S128x128 .f32) (b0 : FVec Ideal S128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (w4 : FVec Ideal S128x128 .f32) (b4 : FVec Ideal S128 .f32)
    (h : fn (F := Ideal) x ei w0 b0 w1 b1 w2 b2 w3 b3 w4 b4 = fun _ => 1#1) :
    ∀ q : S2x640000.Idx, 0 ≤ (ei q).toInt ∧ (ei q).toInt < 100000 := by
  have h0 := congrFun h ix0
  dsimp only [fn, fn_part1, fn_part2, fn_part3] at h0
  obtain ⟨h1, hlt⟩ := IntOp.andi_eq_one.mp h0
  obtain ⟨-, hge⟩ := IntOp.andi_eq_one.mp h1
  intro q
  have g := Host.reduce_andi_all _ _ _ _ _ hge q
  have l := Host.reduce_andi_all _ _ _ _ _ hlt q
  have g' : IntOp.cmpi .sge (ei q) (broadcastInDim S2x640000 ![] _ (constantI S_ 32 0#32) q) = 1#1 := g
  have l' : IntOp.cmpi .slt (ei q) (broadcastInDim S2x640000 ![] _ (constantI S_ 32 100000#32) q) = 1#1 := l
  rw [PlainDot.broadcastInDim_scalar, constantI_apply, IntOp.cmpi_sge] at g'
  rw [PlainDot.broadcastInDim_scalar, constantI_apply, IntOp.cmpi_slt] at l'
  have z : (0#32 : BitVec 32).toInt = 0 := by decide
  have n : (100000#32 : BitVec 32).toInt = 100000 := by decide
  omega

end Cert.Pre_finite_inputs.Range

end
-- ==== Proof.lean ====
/-
  The certificate of a five-layer graph convolution: a kernel of six launches against its reference, equal over the
  extended reals.

  Both programs compute, from node features `x`, an edge list and five weight matrices and biases,
  `hₗ₊₁ = relu (Â (hₗ Wₗᵀ) + bₗ)` (no relu after the last layer), where `Â = D (A + I) D` is the adjacency matrix with self
  loops (edges whose ends coincide removed), scaled on both sides by `D = diag (1/√deg)`. The reference scales every
  gathered row by its slot's coefficient `D[src] · ew · D[dst]` before adding it into its target's row. The kernel
  folds the source's factor into the rows before gathering (`D ⊙ (h Wᵀ)`), redirects the removed edges to a zero row,
  and applies the target's factor after the sum, inside the next launch. Since `D[i]` is a nonnegative real it
  distributes over the sum of extended reals, and the two results agree entry by entry; no other law than
  commutativity and associativity of the product is used, so the float inputs may be any extended reals. What is used
  of the precondition is that every entry of the edge list is a node number: the two programs gather from tables of
  100001 and 100000 rows, which treat an out-of-range index differently.

  The frames are the generated ones (the reference's is its run with the result dropped); the ledger of the kernel's
  idealization is empty.
-/
import proofs.«113241_j59012850647682_2_alg».proof.Defs
import proofs.«113241_j59012850647682_2_alg».proof.Proof.Gen.Kernel
import proofs.«113241_j59012850647682_2_alg».proof.Proof.Gen.Kernel.Skeleton
import proofs.«113241_j59012850647682_2_alg».proof.Proof.Gen.Kernel.Launch
import proofs.«113241_j59012850647682_2_alg».proof.Proof.Gen.Kernel.Points
import proofs.«113241_j59012850647682_2_alg».proof.Proof.Gen.Kernel.Frame
import proofs.«113241_j59012850647682_2_alg».proof.Proof.Gen.KernelIdeal
import proofs.«113241_j59012850647682_2_alg».proof.Proof.Gen.KernelIdeal.Skeleton
import proofs.«113241_j59012850647682_2_alg».proof.Proof.Gen.KernelIdeal.Launch
import proofs.«113241_j59012850647682_2_alg».proof.Proof.Gen.KernelIdeal.Points
import proofs.«113241_j59012850647682_2_alg».proof.Proof.Gen.KernelIdeal.Frame
import proofs.«113241_j59012850647682_2_alg».proof.Proof.Gen.ReferenceIdeal
import proofs.«113241_j59012850647682_2_alg».proof.Proof.Gen.Pre_finite_inputs
import proofs.«113241_j59012850647682_2_alg».proof.Proof.RefRunP
import proofs.«113241_j59012850647682_2_alg».proof.Proof.RefVal
import proofs.«113241_j59012850647682_2_alg».proof.Proof.KRun
import proofs.«113241_j59012850647682_2_alg».proof.Proof.KValue
import proofs.«113241_j59012850647682_2_alg».proof.Proof.Bridge
import proofs.«113241_j59012850647682_2_alg».proof.Proof.PreRange
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments, with the edge list in range, both programs end and their results are one
    array: the kernel's run ends at its composition of launches and host stretches, the reference's at its composed
    term, and the two are equal entry by entry. -/
theorem algebraic : Cert.algebraic_KernelIdeal_ReferenceIdeal := by
  intro m ρ m' ρ' hpre hagree
  refine ⟨fun c => Cert.KernelIdeal.Gen.W16 m ρ c (Proc.devRef .tc Cert.KernelIdeal.main_v95),
    Cert.KernelIdeal.RegVal.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  have hin : Cert.KernelIdeal.RegVal.InRange (m ((c.tc : Thread Cert.KernelIdeal.nD Cert.KernelIdeal.τ).loc Cert.KernelIdeal.main_arg1)) :=
    Cert.Pre_finite_inputs.Range.inRange_of_pre _ _ _ _ _ _ _ _ _ _ _ _ (hpre c)
  rw [Cert.ReferenceIdeal.RefVal.res_eq, a0, a1, a2, a3, a4, a5, a6, a7, a8, a9, a10, a11]
  refine Eq.trans ?_ (Cert.KernelIdeal.RegVal.kernel_value m ρ c).symm
  exact (Cert.KernelIdeal.RegVal.out_eq _ hin _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
